-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) (main_arg1 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x2048x3 : Shape := ⟨3, ![8, 2048, 3]⟩
abbrev S16384x3 : Shape := ⟨2, ![16384, 3]⟩
abbrev S3x16384 : Shape := ⟨2, ![3, 16384]⟩
abbrev S1x16384 : Shape := ⟨2, ![1, 16384]⟩
abbrev S2x1x16384 : Shape := ⟨3, ![2, 1, 16384]⟩
abbrev S3x2048 : Shape := ⟨2, ![3, 2048]⟩
abbrev S1024x3 : Shape := ⟨2, ![1024, 3]⟩
abbrev S1x2048 : Shape := ⟨2, ![1, 2048]⟩
abbrev S1x1x16384 : Shape := ⟨3, ![1, 1, 16384]⟩
abbrev S1024x2048 : Shape := ⟨2, ![1024, 2048]⟩
abbrev S2048 : Shape := ⟨1, ![2048]⟩
abbrev S1024x1 : Shape := ⟨2, ![1024, 1]⟩
abbrev S1024 : Shape := ⟨1, ![1024]⟩
abbrev S1x1024 : Shape := ⟨2, ![1, 1024]⟩
abbrev S16384 : Shape := ⟨1, ![16384]⟩
abbrev S_ : Shape := ⟨0, ![]⟩

abbrev nBuf : Space → Nat
  | .hbm => 22
  | .vmem => 9
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S16384x3, .f32⟩
  | .hbm, ⟨3, _⟩ => ⟨S16384x3, .f32⟩
  | .hbm, ⟨4, _⟩ => ⟨S3x16384, .f32⟩
  | .hbm, ⟨5, _⟩ => ⟨S1x16384, .f32⟩
  | .hbm, ⟨6, _⟩ => ⟨S2x1x16384, .f32⟩
  | .hbm, ⟨7, _⟩ => ⟨S16384, .f32⟩
  | .hbm, ⟨8, _⟩ => ⟨S1x1x16384, .f32⟩
  | .hbm, ⟨9, _⟩ => ⟨S16384, .f32⟩
  | .hbm, ⟨10, _⟩ => ⟨S1x1x16384, .f32⟩
  | .hbm, ⟨11, _⟩ => ⟨S16384, .f32⟩
  | .hbm, ⟨12, _⟩ => ⟨S16384, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S3x2048, .f32⟩
  | .local _ .vmem, ⟨1, _⟩ => ⟨S3x2048, .f32⟩
  | .local _ .vmem, ⟨2, _⟩ => ⟨S1024x3, .f32⟩
  | .local _ .vmem, ⟨3, _⟩ => ⟨S1024x3, .f32⟩
  | .local _ .vmem, ⟨4, _⟩ => ⟨S1x2048, .f32⟩
  | .local _ .vmem, ⟨5, _⟩ => ⟨S1x2048, .f32⟩
  | .local _ .vmem, ⟨6, _⟩ => ⟨S1x1x16384, .f32⟩
  | .local _ .vmem, ⟨7, _⟩ => ⟨S1x1x16384, .f32⟩
  | .local _ .vmem, ⟨8, _⟩ => ⟨S1x16384, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c1024_i32 : BitVec 32 := 1024#32
  let v51 : BitVec 32 := Scalar.muli arg2 c1024_i32
  v51
def k0_off1 (i : grid0.Coords) : Fin 2 → Nat :=
  let c0_19 : Index := 0#32
  let arg2 : BitVec 32 := BitVec.ofNat 32 (i 2).val
  let c1024_i32 : BitVec 32 := 1024#32
  let v51 : BitVec 32 := Scalar.muli arg2 c1024_i32
  let v52 : BitVec 32 := v51
  let v53 : Index := Scalar.indexCast v52
  ![0, v53.toNat]
def k0_cond4 (i : grid0.Coords) : BitVec 1 :=
  let arg1 : BitVec 32 := BitVec.ofNat 32 (i 1).val
  let c3_i32 : BitVec 32 := 3#32
  let v63 : BitVec 1 := Scalar.cmpi .eq arg1 c3_i32
  let arg2 : BitVec 32 := BitVec.ofNat 32 (i 2).val
  let c15_i32_22 : BitVec 32 := 15#32
  let v64 : BitVec 1 := Scalar.cmpi .eq arg2 c15_i32_22
  let v65 : BitVec 1 := Scalar.andi v63 v64
  let v66 : BitVec 32 := Scalar.extui v65
  let c0_i32_23 : BitVec 32 := 0#32
  let v67 : BitVec 1 := Scalar.cmpi .ne v66 c0_i32_23
  v67

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S8x2048x3_S16384x3 : S8x2048x3.ShapeCasts S16384x3
  transposes_S16384x3_S3x16384_1_0 : S16384x3.Transposes [1, 0] S3x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S1x2048_S1x2048_0_0 : ∀ a, (![0, 0] : Fin 2 → Nat) a + S1x2048.size a ≤ S1x2048.size a
  h_S1x2048 : 0 < S1x2048.numel
  inb_S3x2048_S1x2048_0_0 : ∀ a, (![0, 0] : Fin 2 → Nat) a + S1x2048.size a ≤ S3x2048.size a
  shapeCasts_S1x2048_S2048 : S1x2048.ShapeCasts S2048
  inb_S1024x3_S1024x1_0_0 : ∀ a, (![0, 0] : Fin 2 → Nat) a + S1024x1.size a ≤ S1024x3.size a
  h_S1024x1 : 0 < S1024x1.numel
  shapeCasts_S1024x1_S1024 : S1024x1.ShapeCasts S1024
  shapeCasts_S1024_S1024x1 : S1024.ShapeCasts S1024x1
  shapeCasts_S2048_S1x2048 : S2048.ShapeCasts S1x2048
  broadcasts_S1024x1_S1024x2048 : S1024x1.Broadcasts S1024x2048
  broadcasts_S1x2048_S1024x2048 : S1x2048.Broadcasts S1024x2048
  inb_S3x2048_S1x2048_1_0 : ∀ a, (![1, 0] : Fin 2 → Nat) a + S1x2048.size a ≤ S3x2048.size a
  inb_S1024x3_S1024x1_0_1 : ∀ a, (![0, 1] : Fin 2 → Nat) a + S1024x1.size a ≤ S1024x3.size a
  inb_S3x2048_S1x2048_2_0 : ∀ a, (![2, 0] : Fin 2 → Nat) a + S1x2048.size a ≤ S3x2048.size a
  inb_S1024x3_S1024x1_0_2 : ∀ a, (![0, 2] : Fin 2 → Nat) a + S1024x1.size a ≤ S1024x3.size a
  reduces_S1024x2048_S2048 : S1024x2048.Reduces [0] S2048
  shapeCasts_S1x2048_S1x2048 : S1x2048.ShapeCasts S1x2048
  reduces_S1024x2048_S1024 : S1024x2048.Reduces [1] S1024
  transposes_S1024x1_p1_0_S1x1024 : S1024x1.Transposes [1, 0] S1x1024
  h_S1x1024 : 0 < S1x1024.numel
  shapeCasts_S1x1024_S1x1024 : S1x1024.ShapeCasts S1x1024
  shapeCasts_S1x16384_S16384 : S1x16384.ShapeCasts S16384
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S16384 : S1x1x16384.ShapeCasts S16384
  shapeCasts_S16384_S1x1x16384 : S16384.ShapeCasts S1x1x16384
  slices_S2x1x16384_S1x1x16384_0_0_0 : S2x1x16384.Slices ![0, 0, 0] S1x1x16384
  slices_S2x1x16384_S1x1x16384_1_0_0 : S2x1x16384.Slices ![1, 0, 0] S1x1x16384
  reducesTo_S16384_S_d0 : S16384.ReducesTo [0] S_
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1x1024.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2048.size a ≤ S3x16384.size a
  hwx0_0 : ∀ i : grid0.Coords, EltTy.bits .f32 = 32 ∨ (Rect.block (s := S3x16384) S3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16384.size a ≤ S2x1x16384.size a
  hwx0_3 : ∀ i : grid0.Coords, EltTy.bits .f32 = 32 ∨ (Rect.block (s := S2x1x16384) S1x1x16384.size (cc0_transform_3 i) (hinb0_3 i)).WholeWords (EltTy.packing .f32)

variable [Facts₀]

abbrev win0_0 : Pipeline.Window sig grid0 :=
  Pipeline.Window.ofSpec (Memref.whole main_v2) S3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8x2048x3 : Shape := ⟨3, ![8, 2048, 3]⟩
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S16384x3, .f32⟩
  | .hbm, ⟨3, _⟩ => ⟨S16384x3, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x3, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  shapeCasts_S8x2048x3_S16384x3 : S8x2048x3.ShapeCasts S16384x3
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d0 : S16384x16384.ReducesTo [0] S16384
  reducesTo_S16384x16384_S16384_d1 : S16384x16384.ReducesTo [1] S16384
  reducesTo_S16384_S_d0 : S16384.ReducesTo [0] S_
  dot_S16384x3_S16384x3_S16384x16384_1_1_0_0_n_n_wf : DotDims.WF S16384x3 S16384x3 S16384x16384 [1] [1] [0] [0] [] []

variable [Facts₀]

def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.Distance.lean ====
/-
  The real-number facts behind the equivalence of the two nearest-neighbour computations.

  * The square root on the extended reals (⊥ below zero, √r at a real r ≥ 0, ⊤ at ⊤) is monotone, so it commutes with
    the minimum of two values and with a fold of minima.
  * For two points a, b of ℝ³ the sum of squared coordinate differences, accumulated from zero one coordinate at a
    time, equals ‖a‖² + ‖b‖² − 2·⟨a, b⟩ clamped below at zero: the expansion of the square, and the sum of squares
    being nonnegative so that the clamp does nothing.
-/
import Mathlib
import Idealize.ShloMosaic.PureOps.Ideal

namespace Cert.Chamfer

open Idealize.ShloMosaic

/-- The extended-real square root is monotone. -/
theorem sqrt_mono : Monotone Ideal.sqrt := by
  intro x y hxy
  induction x using EReal.rec with
  | bot => simp
  | top =>
    have : y = ⊤ := top_le_iff.mp hxy
    subst this; exact le_rfl
  | coe r =>
    induction y using EReal.rec with
    | bot => exact absurd hxy (by simp)
    | top => simp
    | coe s =>
      have hrs : r ≤ s := EReal.coe_le_coe_iff.mp hxy
      simp only [Ideal.sqrt_coe]
      by_cases hr : r < 0
      · simp [hr]
      · have hs : ¬ s < 0 := fun h => hr (lt_of_le_of_lt hrs h)
        simp only [hr, hs, if_false]
        exact EReal.coe_le_coe_iff.mpr (Real.sqrt_le_sqrt hrs)

/-- The square root of the smaller of two values is the smaller of the two square roots. -/
theorem sqrt_min (x y : EReal) : Ideal.sqrt (min x y) = min (Ideal.sqrt x) (Ideal.sqrt y) :=
  sqrt_mono.map_min

/-- The squared distance of two real points of ℝ³, accumulated from zero coordinate by coordinate, is
    ‖a‖² + ‖b‖² − 2⟨a, b⟩ clamped at zero (each norm and the inner product being a sum over the three coordinates,
    the norms accumulated from zero). -/
theorem sqdist_expand (a b : Fin 3 → ℝ) :
    max ((((0 : EReal) + ∑ k : Fin 3, ((a k : ℝ) : EReal) * (a k : ℝ)) + ((0 : EReal) + ∑ k : Fin 3, ((b k : ℝ) : EReal) * (b k : ℝ)))
          - ((2 : ℝ) : EReal) * ∑ k : Fin 3, ((a k : ℝ) : EReal) * (b k : ℝ)) (0 : EReal)
      = (((0 : EReal) + (((b 0 : ℝ) : EReal) - (a 0 : ℝ)) * (((b 0 : ℝ) : EReal) - (a 0 : ℝ)))
          + (((b 1 : ℝ) : EReal) - (a 1 : ℝ)) * (((b 1 : ℝ) : EReal) - (a 1 : ℝ)))
          + (((b 2 : ℝ) : EReal) - (a 2 : ℝ)) * (((b 2 : ℝ) : EReal) - (a 2 : ℝ)) := by
  simp only [Fin.sum_univ_three]
  have h0 : (0 : EReal) = ((0 : ℝ) : EReal) := rfl
  rw [h0]
  simp only [← EReal.coe_mul, ← EReal.coe_add, ← EReal.coe_sub]
  have hnn : 0 ≤ 0 + (b 0 - a 0) * (b 0 - a 0) + (b 1 - a 1) * (b 1 - a 1) + (b 2 - a 2) * (b 2 - a 2) := by
    nlinarith [mul_self_nonneg (b 0 - a 0), mul_self_nonneg (b 1 - a 1), mul_self_nonneg (b 2 - a 2)]
  have he : 0 + (a 0 * a 0 + a 1 * a 1 + a 2 * a 2) + (0 + (b 0 * b 0 + b 1 * b 1 + b 2 * b 2))
      - 2 * (a 0 * b 0 + a 1 * b 1 + a 2 * b 2)
      = 0 + (b 0 - a 0) * (b 0 - a 0) + (b 1 - a 1) * (b 1 - a 1) + (b 2 - a 2) * (b 2 - a 2) := by ring
  rw [he]
  exact max_eq_left (EReal.coe_le_coe_iff.mpr hnn)

end Cert.Chamfer
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.LibMinReduce.lean ====
/-
  A matrix reduced by a minimum along its rows or along its columns, and summed along its columns, read at the
  reduced index, at the ideal values: the lane minimum of `[a, b]` at row `r` is the fold of `min`, from the value
  the accumulator's word denotes, over the entries `(r, c)` of the row; the sublane minimum at column `c` the same
  fold over the entries `(r, c)` of the column; the sublane sum at column `c` the sum of the column's entries.
  A minimum folded from `⊤` is the infimum. (The lane sum and the row's lifted index are the row-reduction module's.)
-/
import proofs.«137904_j8701603742377_2_alg».proof.Proof.LibRowReduce
import Idealize.ShloMosaic.Lib.ValueIdx
import Idealize.ShloMosaic.PureOps.Ideal.Laws

noncomputable section

namespace Cert.LibMinReduce

open Idealize.ShloMosaic Idealize.ShloMosaic.ValueIdx

/-- Column `c` of `[a, b]` with the row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d
  apply Fin.ext
  match d with
  | ⟨0, _⟩ => rfl
  | ⟨1, _⟩ => rfl

/-- A minimum reduction over one axis, at the ideal values: the fold of `min` from the accumulator's value over that
    axis's coordinates. -/
theorem multiReduction_minimumf_single {s t : Shape} {φ : FTy} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The lane minimum of a matrix at row `r`: the fold of `min` over the row's entries. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun c => src (ix2 r c)) :=
  (multiReduction_minimumf_single src acc h hφ hacc (ix1 r)).trans
    (congrArg ((Finset.univ : Finset (Fin b)).fold min (Ideal.ofBits φ acc)) (funext fun c => congrArg src (Cert.LibRowReduce.lift_row h r c)))

/-- The sublane minimum of a matrix at column `c`: the fold of `min` over the column's entries. -/
theorem colMin_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (Ideal.ofBits φ acc) (fun r => src (ix2 r c)) :=
  (multiReduction_minimumf_single src acc h hφ hacc (ix1 c)).trans
    (congrArg ((Finset.univ : Finset (Fin a)).fold min (Ideal.ofBits φ acc)) (funext fun r => congrArg src (lift_col h c r)))

/-- The sublane sum of a matrix at column `c`: the sum of the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

/-- A minimum folded from the top element is the infimum. -/
theorem fold_min_top {ι : Type} (s : Finset ι) (f : ι → EReal) : s.fold min (⊤ : EReal) f = s.inf f := rfl

end Cert.LibMinReduce

end
-- ==== Proof.LibFiniteEntry.lean ====
/-
  "The absolute value is below +∞" makes an extended real a real number.

  A test that an array holds finite numbers compares, entry by entry, the absolute value `max v (-v)` with the float
  word `0x7F800000`, which is `+∞` (all exponent bits set, zero fraction, sign clear). An extended real whose absolute
  value is below `⊤` is neither `⊤` (whose absolute value is `⊤`) nor `⊥` (likewise): it is a real number.
-/
import Idealize.ShloMosaic.PureOps.Ideal.Laws

noncomputable section

namespace Cert.FiniteEntry

open Idealize.ShloMosaic

/-- The word the test compares against is `+∞`. -/
theorem inf_word : Ideal.ofBits .f32 0x7F800000#32 = (⊤ : EReal) := by simp [Ideal.ofBits, Ideal.ieee]

/-- An extended real whose absolute value is below `+∞` is a real number. -/
theorem real_of_abs_lt_top (v : EReal) (h : max v (-v) < ⊤) : ∃ r : ℝ, v = r := by
  induction v using EReal.rec with
  | bot => exact absurd h (by simp)
  | coe r => exact ⟨r, rfl⟩
  | top => exact absurd h (by simp)

/-- One entry's test `|v| < +∞` being true (the comparison's bit is 1) makes the entry a real number. -/
theorem real_of_test (v : EReal) (h : Ideal.cmp .olt (max v (-v)) (Ideal.ofBits .f32 0x7F800000#32) = 1#1) :
    ∃ r : ℝ, v = r := by
  rw [inf_word] at h
  refine real_of_abs_lt_top v ?_
  by_contra hn
  simp [Ideal.cmp, hn] at h

end Cert.FiniteEntry

end
-- ==== Proof.Tile.lean ====
/-
  The body's arithmetic, read entry by entry over the extended reals.

  One grid point sees a block of 2048 points of the first cloud as three rows (one per coordinate) and a block of 1024
  points of the second cloud as three columns.  The tile of squared distances has, at row r and column l, the sum of the
  three squared differences between coordinate d of second-cloud point r and coordinate d of first-cloud point l,
  accumulated from zero.  The column minimum of the tile is folded into the running row of 2048 minima, the row minimum
  into a 1024-wide slice of the running vector of 16384 minima; at the end of a sweep the square root is applied entry by
  entry.
-/
import proofs.«137904_j8701603742377_2_alg».proof.Proof.Gen.KernelIdeal.Skeleton
import proofs.«137904_j8701603742377_2_alg».proof.Proof.LibKeepdims
import proofs.«137904_j8701603742377_2_alg».proof.Proof.LibMinReduce
import proofs.«137904_j8701603742377_2_alg».proof.Proof.LibFiniteEntry
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Tile

open Idealize.ShloMosaic Idealize.ShloMosaic.ValueIdx Idealize.ShloMosaic.TcCoe
open Cert.KernelIdeal Cert.KernelIdeal.Gen

/-- The tile of squared distances, from the three coordinate rows of the first cloud's block and the three coordinate
    columns of the second cloud's block. -/
def tile (a0 a1 a2 : Vec Ideal S1x2048 .f32) (b0 b1 b2 : Vec Ideal S1024x1 .f32) : FVec Ideal S1024x2048 .f32 :=
  k0_pay1 (F := Ideal) (k0_pay8 (F := Ideal) a0 b0 a1 b1) (k0_pay9 (F := Ideal) b2) (k0_pay10 (F := Ideal) a2)

/-- Entry (r, l) of the tile: the three squared coordinate differences summed from zero. -/
theorem tile_apply (a0 a1 a2 : Vec Ideal S1x2048 .f32) (b0 b1 b2 : Vec Ideal S1024x1 .f32) (r : Fin 1024) (l : Fin 2048) :
    tile a0 a1 a2 b0 b1 b2 (ix2 r l)
      = (((0 : EReal) + (b0 (ix2 r 0) - a0 (ix2 0 l)) * (b0 (ix2 r 0) - a0 (ix2 0 l)))
          + (b1 (ix2 r 0) - a1 (ix2 0 l)) * (b1 (ix2 r 0) - a1 (ix2 0 l)))
        + (b2 (ix2 r 0) - a2 (ix2 0 l)) * (b2 (ix2 r 0) - a2 (ix2 0 l)) := by
  unfold tile k0_pay1 k0_pay8 k0_pay9 k0_pay10
  dsimp only
  simp only [shapeCast_shapeCast]
  simp only [addf_apply, mulf_apply, subf_apply, broadcast_apply, Cert.LibKeepdims.broadcastTo_a1_ab_apply,
    broadcastTo_1b_ab_apply, Cert.LibKeepdims.scalar_ofBits, Ideal.ofBits_zero_f32]

/-- The running row of minima after a point: the smaller of what it held and the tile's column minimum. -/
theorem colmin_apply (T : FVec Ideal S1024x2048 .f32) (v35 : FVec Ideal S1024x1 .f32) (v36 : FVec Ideal S1x2048 .f32)
    (old : Vec Ideal S1x2048 .f32) (l : Fin 2048) :
    k0_pay2 (F := Ideal) T v35 v36 old (ix2 0 l)
      = min (old (ix2 0 l)) ((Finset.univ : Finset (Fin 1024)).inf fun r => k0_pay1 (F := Ideal) T v35 v36 (ix2 r l)) := by
  unfold k0_pay2
  dsimp only
  rw [minimumf_apply, shapeCast_self, shapeCast_a_1a_apply]
  refine congrArg (min (old (ix2 0 l))) ?_
  refine (Cert.LibMinReduce.colMin_apply (k0_pay1 (F := Ideal) T v35 v36) 0x7F800000#32 reduces_S1024x2048_S2048 (.inl rfl) rfl l).trans ?_
  rw [Cert.FiniteEntry.inf_word, Cert.LibMinReduce.fold_min_top]

/-- The running slice of minima after a point: the smaller of what it held and the tile's row minimum. -/
theorem rowmin_apply (T : FVec Ideal S1024x2048 .f32) (v35 : FVec Ideal S1024x1 .f32) (v36 : FVec Ideal S1x2048 .f32)
    (old : Vec Ideal S1x1024 .f32) (q : Fin 1024) :
    k0_pay3 (F := Ideal) T v35 v36 old (ix2 0 q)
      = min (old (ix2 0 q)) ((Finset.univ : Finset (Fin 2048)).inf fun l => k0_pay1 (F := Ideal) T v35 v36 (ix2 q l)) := by
  unfold k0_pay3
  dsimp only
  rw [shapeCast_self, minimumf_apply, transpose_ix2_apply, Cert.LibKeepdims.shapeCast_a_a1_apply]
  refine congrArg (min (old (ix2 0 q))) ?_
  refine (Cert.LibMinReduce.rowMin_apply (k0_pay1 (F := Ideal) T v35 v36) 0x7F800000#32 reduces_S1024x2048_S1024 (.inl rfl) rfl q).trans ?_
  rw [Cert.FiniteEntry.inf_word, Cert.LibMinReduce.fold_min_top]

/-- The square root of the row of minima, entry by entry. -/
theorem sqrtRow_apply (v : Vec Ideal S1x2048 .f32) (l : Fin 2048) :
    k0_pay4 (F := Ideal) v (ix2 0 l) = Ideal.sqrt (v (ix2 0 l)) := by
  unfold k0_pay4
  try dsimp only
  rw [shapeCast_self]
  rfl

/-- The square root of the vector of 16384 minima, entry by entry, laid out as a block with two unit axes in front. -/
theorem sqrtAll_apply (v : Vec Ideal S1x16384 .f32) (q : Fin 16384) :
    k0_pay5 (F := Ideal) v (ix3 0 0 q) = Ideal.sqrt (v (ix2 0 q)) := by
  unfold k0_pay5
  try dsimp only
  refine (shapeCast_apply _ shapeCasts_S16384_S1x1x16384 (ix3 0 0 q) (ix1 q)
    (by rw [Shape.rowMajor_val_three, Shape.rowMajor_val_one]; show q.val = (0 * 1 + 0) * 16384 + q.val; omega)).trans ?_
  show Ideal.sqrt (shapeCast S16384 v shapeCasts_S1x16384_S16384 (ix1 q)) = _
  exact congrArg Ideal.sqrt (shapeCast_1a_a_apply v shapeCasts_S1x16384_S16384 q)

/-- The vector of minima starts at +∞ everywhere. -/
theorem topAll_apply (y : S1x16384.Idx) : k0_pay6 (F := Ideal) y = (⊤ : EReal) := by
  unfold k0_pay6
  try dsimp only
  rw [shapeCast_self, broadcast_apply, Cert.LibKeepdims.scalar_ofBits, Cert.FiniteEntry.inf_word]

/-- The row of minima starts at +∞ everywhere. -/
theorem topRow_apply (y : S1x2048.Idx) : k0_pay7 (F := Ideal) y = (⊤ : EReal) := by
  unfold k0_pay7
  try dsimp only
  rw [broadcast_apply, Cert.LibKeepdims.scalar_ofBits, Cert.FiniteEntry.inf_word]

end Cert.KernelIdeal.Tile

end
-- ==== Proof.Pieces.lean ====
/-
  What the body leaves in its buffers at one grid point, case by case.

  The row of 2048 running minima (output 2) is reset to +∞ at the first key block of a sweep, lowered by the tile's
  column minima at every point, and replaced by its square root at the last key block.  The vector of 16384 running
  minima (the scratch) is reset to +∞ at the first point of a half, lowered on the 1024 entries of the current key block
  by the tile's row minima at every point and left alone elsewhere; at the last point of a half its square root is
  stored to output 3.
-/
import proofs.«137904_j8701603742377_2_alg».proof.Proof.Gen.KernelIdeal.Frame
import proofs.«137904_j8701603742377_2_alg».proof.Proof.Tile
import Idealize.ShloMosaic.Lib.Pipeline.Value
import Idealize.ShloMosaic.Lib.WritesUnit
import Idealize.ShloMosaic.Lib.Tactic

set_option maxRecDepth 16384

noncomputable section

open Idealize.ShloMosaic Idealize.ShloMosaic.TcCoe Idealize.SL.Sem Idealize.ShloMosaic.Tactic Idealize.ShloMosaic.ValueIdx

namespace Cert.KernelIdeal.Pieces

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The partial sum of the first two squared differences, over the loads of the two blocks. -/
abbrev P8 (x0 : Vec Ideal S3x2048 .f32) (x1 : Vec Ideal S1024x3 .f32) : FVec Ideal S1024x2048 .f32 :=
  k0_pay8 (F := Ideal) (View.ld x0 (Rect.unit ![0, 0] S1x2048.size inb_S3x2048_S1x2048_0_0))
    (View.ld x1 (Rect.unit ![0, 0] S1024x1.size inb_S1024x3_S1024x1_0_0))
    (View.ld x0 (Rect.unit ![1, 0] S1x2048.size inb_S3x2048_S1x2048_1_0))
    (View.ld x1 (Rect.unit ![0, 1] S1024x1.size inb_S1024x3_S1024x1_0_1))
/-- The third coordinate column of the second cloud's block. -/
abbrev P9 (x1 : Vec Ideal S1024x3 .f32) : FVec Ideal S1024x1 .f32 :=
  k0_pay9 (F := Ideal) (View.ld x1 (Rect.unit ![0, 2] S1024x1.size inb_S1024x3_S1024x1_0_2))
/-- The third coordinate row of the first cloud's block. -/
abbrev P10 (x0 : Vec Ideal S3x2048 .f32) : FVec Ideal S1x2048 .f32 :=
  k0_pay10 (F := Ideal) (View.ld x0 (Rect.unit ![2, 0] S1x2048.size inb_S3x2048_S1x2048_2_0))

/-- The tile of squared distances of the two blocks. -/
abbrev blockTile (x0 : Vec Ideal S3x2048 .f32) (x1 : Vec Ideal S1024x3 .f32) : FVec Ideal S1024x2048 .f32 := k0_pay1 (F := Ideal) (P8 x0 x1) (P9 x1) (P10 x0)

/-- Row `d` of the first cloud's block, loaded as a [1, 2048] vector, reads the block at (d, l). -/
theorem ld_row (x0 : Vec Ideal S3x2048 .f32) (off : Fin 2 → ℕ) (inb : ∀ a, off a + S1x2048.size a ≤ S3x2048.size a) (d : Fin 3)
    (hoff : off = ![d.val, 0]) (l : Fin 2048) :
    View.ld x0 (Rect.unit (s := S3x2048) off S1x2048.size inb) (ix2 (0 : Fin 1) l) = x0 (ix2 d l) := by
  subst hoff
  show x0 _ = x0 _
  refine congrArg x0 (funext fun a => Fin.ext ?_)
  match a with
  | ⟨0, _⟩ => show d.val + 1 * 0 = d.val; omega
  | ⟨1, _⟩ => show 0 + 1 * l.val = l.val; omega

/-- Column `d` of the second cloud's block, loaded as a [1024, 1] vector, reads the block at (r, d). -/
theorem ld_col (x1 : Vec Ideal S1024x3 .f32) (off : Fin 2 → ℕ) (inb : ∀ a, off a + S1024x1.size a ≤ S1024x3.size a) (d : Fin 3)
    (hoff : off = ![0, d.val]) (r : Fin 1024) :
    View.ld x1 (Rect.unit (s := S1024x3) off S1024x1.size inb) (ix2 r (0 : Fin 1)) = x1 (ix2 r d) := by
  subst hoff
  show x1 _ = x1 _
  refine congrArg x1 (funext fun a => Fin.ext ?_)
  match a with
  | ⟨0, _⟩ => show 0 + 1 * r.val = r.val; omega
  | ⟨1, _⟩ => show d.val + 1 * 0 = d.val; omega

/-- Entry (r, l) of the blocks' tile: the squared distance between second-cloud point r and first-cloud point l of the
    blocks, accumulated from zero. -/
theorem blockTile_apply (x0 : Vec Ideal S3x2048 .f32) (x1 : Vec Ideal S1024x3 .f32) (r : Fin 1024) (l : Fin 2048) :
    blockTile x0 x1 (ix2 r l)
      = (((0 : EReal) + (x1 (ix2 r 0) - x0 (ix2 0 l)) * (x1 (ix2 r 0) - x0 (ix2 0 l)))
          + (x1 (ix2 r 1) - x0 (ix2 1 l)) * (x1 (ix2 r 1) - x0 (ix2 1 l)))
        + (x1 (ix2 r 2) - x0 (ix2 2 l)) * (x1 (ix2 r 2) - x0 (ix2 2 l)) := by
  refine (Tile.tile_apply _ _ _ _ _ _ r l).trans ?_
  have a0 : View.ld x0 (Rect.unit ![0, 0] S1x2048.size inb_S3x2048_S1x2048_0_0) (ix2 (0 : Fin 1) l) = x0 (ix2 0 l) :=
    ld_row x0 _ _ 0 rfl l
  have a1 : View.ld x0 (Rect.unit ![1, 0] S1x2048.size inb_S3x2048_S1x2048_1_0) (ix2 (0 : Fin 1) l) = x0 (ix2 1 l) :=
    ld_row x0 _ _ 1 rfl l
  have a2 : View.ld x0 (Rect.unit ![2, 0] S1x2048.size inb_S3x2048_S1x2048_2_0) (ix2 (0 : Fin 1) l) = x0 (ix2 2 l) :=
    ld_row x0 _ _ 2 rfl l
  have b0 : View.ld x1 (Rect.unit ![0, 0] S1024x1.size inb_S1024x3_S1024x1_0_0) (ix2 r (0 : Fin 1)) = x1 (ix2 r 0) :=
    ld_col x1 _ _ 0 rfl r
  have b1 : View.ld x1 (Rect.unit ![0, 1] S1024x1.size inb_S1024x3_S1024x1_0_1) (ix2 r (0 : Fin 1)) = x1 (ix2 r 1) :=
    ld_col x1 _ _ 1 rfl r
  have b2 : View.ld x1 (Rect.unit ![0, 2] S1024x1.size inb_S1024x3_S1024x1_0_2) (ix2 r (0 : Fin 1)) = x1 (ix2 r 2) :=
    ld_col x1 _ _ 2 rfl r
  rw [a0, a1, a2, b0, b1, b2]

/-! ## Output 2: the row of running minima -/

theorem out_A_2 (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : cond0_0 i) (hc1 : cond0_1 i) (hc2 : ¬cond0_2 i) (hc3 : ¬cond0_3 i) (x0 : Vec Ideal S3x2048 .f32) (x1 : Vec Ideal S1024x3 .f32) :
    out0_A_2 (F := Ideal) c i a3 h3 a4 h4 a5 h5 a6 h6 a7 h7 hc0 hc1 hc2 hc3 x0 x1 = k0_pay2 (F := Ideal) (P8 x0 x1) (P9 x1) (P10 x0) (k0_pay7 (F := Ideal)) := by
  unfold out0_A_2
  rw [View.read_writes_eq_canon _ _ _ (cover0_A_2 c i a3 h3 a4 h4 a5 h5 a6 h6 a7 h7 hc0 hc1 hc2 hc3 x0 x1)]
  unfold kernelRun0_A
  dsimp only
  sl_unfold_words
  rw [View.canon_cons_unit_zero (S := S1x2048) hz2, View.readCov_unit_zero (S := S1x2048) _ hz2]
  simp only [View.readAt_eq_ld, h3.read_unread, h4.read_unread, h5.read_unread, View.ld_unit_zero (S := S1x2048) hz2]

theorem out_D_2 (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : ¬cond0_0 i) (hc1 : cond0_1 i) (hc2 : ¬cond0_2 i) (hc3 : ¬cond0_3 i) (x0 : Vec Ideal S3x2048 .f32) (x1 : Vec Ideal S1024x3 .f32) (xs0 : Vec Ideal S1x16384 .f32) :
    out0_D_2 (F := Ideal) c i a3 h3 a4 h4 a5 h5 a6 h6 a7 h7 hc0 hc1 hc2 hc3 x0 x1 xs0 = k0_pay2 (F := Ideal) (P8 x0 x1) (P9 x1) (P10 x0) (k0_pay7 (F := Ideal)) := by
  unfold out0_D_2
  rw [View.read_writes_eq_canon _ _ _ (cover0_D_2 c i a3 h3 a4 h4 a5 h5 a6 h6 a7 h7 hc0 hc1 hc2 hc3 x0 x1 xs0)]
  unfold kernelRun0_D
  dsimp only
  sl_unfold_words
  rw [View.canon_cons_unit_zero (S := S1x2048) hz2, View.readCov_unit_zero (S := S1x2048) _ hz2]
  simp only [View.readAt_eq_ld, h3.read_unread, h4.read_unread, h5.read_unread, View.ld_unit_zero (S := S1x2048) hz2]

theorem out_B_2 (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : ¬cond0_0 i) (hc1 : ¬cond0_1 i) (hc2 : ¬cond0_2 i) (hc3 : ¬cond0_3 i) (x0 : Vec Ideal S3x2048 .f32) (x1 : Vec Ideal S1024x3 .f32) (xo2 : Vec Ideal S1x2048 .f32) (xs0 : Vec Ideal S1x16384 .f32) :
    out0_B_2 (F := Ideal) c i a3 h3 a4 h4 a5 h5 a6 h6 a7 h7 hc0 hc1 hc2 hc3 x0 x1 xo2 xs0 = k0_pay2 (F := Ideal) (P8 x0 x1) (P9 x1) (P10 x0) xo2 := by
  unfold out0_B_2
  rw [View.read_writes_eq_canon _ _ _ (cover0_B_2 c i a3 h3 a4 h4 a5 h5 a6 h6 a7 h7 hc0 hc1 hc2 hc3 x0 x1 xo2 xs0)]
  unfold kernelRun0_B
  dsimp only
  sl_unfold_words
  rw [View.canon_unit_zero hz2]
  simp only [View.readAt_eq_ld, h3.read_unread, h4.read_unread, h5.read_unread, View.ld_unit_zero (S := S1x2048) hz2]

theorem out_C_2 (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : ¬cond0_0 i) (hc1 : ¬cond0_1 i) (hc2 : cond0_2 i) (hc3 : ¬cond0_3 i) (x0 : Vec Ideal S3x2048 .f32) (x1 : Vec Ideal S1024x3 .f32) (xo2 : Vec Ideal S1x2048 .f32) (xs0 : Vec Ideal S1x16384 .f32) :
    out0_C_2 (F := Ideal) c i a3 h3 a4 h4 a5 h5 a6 h6 a7 h7 hc0 hc1 hc2 hc3 x0 x1 xo2 xs0
      = k0_pay4 (F := Ideal) (k0_pay2 (F := Ideal) (P8 x0 x1) (P9 x1) (P10 x0) xo2) := by
  unfold out0_C_2
  rw [View.read_writes_eq_canon _ _ _ (cover0_C_2 c i a3 h3 a4 h4 a5 h5 a6 h6 a7 h7 hc0 hc1 hc2 hc3 x0 x1 xo2 xs0)]
  unfold kernelRun0_C
  dsimp only
  sl_unfold_words
  rw [View.canon_cons_unit_zero (S := S1x2048) hz2, View.readCov_unit_zero (S := S1x2048) _ hz2]
  simp only [View.readAt_eq_ld, h3.read_unread, h4.read_unread, h5.read_unread, View.ld_unit_zero (S := S1x2048) hz2]

theorem out_E_2 (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : ¬cond0_0 i) (hc1 : ¬cond0_1 i) (hc2 : cond0_2 i) (hc3 : cond0_3 i) (x0 : Vec Ideal S3x2048 .f32) (x1 : Vec Ideal S1024x3 .f32) (xo2 : Vec Ideal S1x2048 .f32) (xs0 : Vec Ideal S1x16384 .f32) :
    out0_E_2 (F := Ideal) c i a3 h3 a4 h4 a5 h5 a6 h6 a7 h7 hc0 hc1 hc2 hc3 x0 x1 xo2 xs0
      = k0_pay4 (F := Ideal) (k0_pay2 (F := Ideal) (P8 x0 x1) (P9 x1) (P10 x0) xo2) := by
  unfold out0_E_2
  rw [View.read_writes_eq_canon _ _ _ (cover0_E_2 c i a3 h3 a4 h4 a5 h5 a6 h6 a7 h7 hc0 hc1 hc2 hc3 x0 x1 xo2 xs0)]
  unfold kernelRun0_E
  dsimp only
  sl_unfold_words
  rw [View.canon_cons_unit_zero (S := S1x2048) hz2, View.readCov_unit_zero (S := S1x2048) _ hz2]
  simp only [View.readAt_eq_ld, h3.read_unread, h4.read_unread, h5.read_unread, View.ld_unit_zero (S := S1x2048) hz2]

/-! ## Output 3: the square root of the vector of running minima, at the last point of a half -/

theorem out_E_3 (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : ¬cond0_0 i) (hc1 : ¬cond0_1 i) (hc2 : cond0_2 i) (hc3 : cond0_3 i) (x0 : Vec Ideal S3x2048 .f32) (x1 : Vec Ideal S1024x3 .f32) (xo2 : Vec Ideal S1x2048 .f32) (xs0 : Vec Ideal S1x16384 .f32) :
    out0_E_3 (F := Ideal) c i a3 h3 a4 h4 a5 h5 a6 h6 a7 h7 hc0 hc1 hc2 hc3 x0 x1 xo2 xs0
      = k0_pay5 (F := Ideal) (sout0_E_0 (F := Ideal) c i a3 h3 a4 h4 a5 h5 a6 h6 a7 h7 hc0 hc1 hc2 hc3 x0 x1 xo2 xs0) := by
  unfold out0_E_3 sout0_E_0
  rw [View.read_writes_eq_canon _ _ _ (cover0_E_3 c i a3 h3 a4 h4 a5 h5 a6 h6 a7 h7 hc0 hc1 hc2 hc3 x0 x1 xo2 xs0)]
  unfold kernelRun0_E
  dsimp only
  sl_unfold_words
  rw [View.canon_unit_zero hz3]
  simp only [View.readAt_eq_ld, View.ld_unit_zero (S := S1x16384) hz2]

end Cert.KernelIdeal.Pieces

end
-- ==== Proof.Slices.lean ====
/-
  The vector of 16384 running minima after one grid point.

  A point lowers the 1024 entries of its key block by the tile's row minima and leaves the other entries as they were.
  Read entry by entry: inside the block the smaller of the carried value and the least squared distance over the point's
  2048 query points, outside it the carried value.  At the first point of a half the carried value is +∞.
-/
import proofs.«137904_j8701603742377_2_alg».proof.Proof.Pieces

set_option maxRecDepth 16384

noncomputable section

open Idealize.ShloMosaic Idealize.ShloMosaic.TcCoe Idealize.SL.Sem Idealize.ShloMosaic.Tactic Idealize.ShloMosaic.ValueIdx

namespace Cert.KernelIdeal.Pieces

open Cert.KernelIdeal Cert.KernelIdeal.Gen

/-- A load of the 1024 entries starting at `o` reads, at position q', the vector's entry o + q'. -/
theorem ld_slice (X : Vec Ideal S1x16384 .f32) (off : Fin 2 → ℕ) (inb : ∀ a, off a + (![1, 1024] : Fin 2 → ℕ) a ≤ S1x16384.size a)
    (o : ℕ) (hoff : off = ![0, o]) (q' : Fin 1024) (q : Fin 16384) (hq : q.val = o + q'.val) :
    View.ld X (Rect.unit (s := S1x16384) off ![1, 1024] inb) (ix2 (0 : Fin 1) q') = X (ix2 (0 : Fin 1) q) := by
  subst hoff
  show X _ = X _
  refine congrArg X (funext fun a => Fin.ext ?_)
  match a with
  | ⟨0, _⟩ => show 0 + 1 * 0 = 0; rfl
  | ⟨1, _⟩ => show o + 1 * q'.val = q.val; omega

/-- A store of the lowered slice over contents that read `X`: inside the slice the smaller of `X` and the tile's row
    minimum, outside it `X`. -/
theorem slice_step {v : View sig .tc .vmem S1x16384 .f32} (f : v.ty.Contents (Elt Ideal)) (L : List (View.Piece (Elt Ideal) S1x16384 .f32))
    (X : Vec Ideal S1x16384 .f32) (hX : v.read (Elt Ideal) (v.writes (Elt Ideal) f L) = X)
    (off : Fin 2 → ℕ) (inb : ∀ a, off a + (![1, 1024] : Fin 2 → ℕ) a ≤ S1x16384.size a) (o : ℕ) (hoff : off = ![0, o])
    (T : FVec Ideal S1024x2048 .f32) (v35 : FVec Ideal S1024x1 .f32) (v36 : FVec Ideal S1x2048 .f32) (old : Vec Ideal S1x1024 .f32)
    (hold : ∀ (q' : Fin 1024) (q : Fin 16384), q.val = o + q'.val → old (ix2 0 q') = X (ix2 0 q)) (q : Fin 16384) :
    v.read (Elt Ideal) (v.writes (Elt Ideal) f
        ((⟨Rect.unit (s := S1x16384) off ![1, 1024] inb, k0_pay3 (F := Ideal) T v35 v36 old⟩ : View.Piece (Elt Ideal) S1x16384 .f32) :: L)) (ix2 0 q)
      = if h : o ≤ q.val ∧ q.val < o + 1024 then
          min (X (ix2 0 q)) ((Finset.univ : Finset (Fin 2048)).inf fun l =>
            k0_pay1 (F := Ideal) T v35 v36 (ix2 (⟨q.val - o, by omega⟩ : Fin 1024) l))
        else X (ix2 0 q) := by
  subst hoff
  by_cases h : o ≤ q.val ∧ q.val < o + 1024
  · rw [dif_pos h]
    refine (View.read_writes_cons_unit_of_mem v f inb _ L (ix2 0 q) (ix2 (0 : Fin 1) (⟨q.val - o, by omega⟩ : Fin 1024)) rfl ?_).trans ?_
    · intro a
      match a with
      | ⟨0, _⟩ => show 0 = 0 + 0; rfl
      | ⟨1, _⟩ => show q.val = o + (q.val - o); omega
    · refine (Tile.rowmin_apply T v35 v36 old _).trans ?_
      rw [hold _ q (by show q.val = o + (q.val - o); omega)]
  · rw [dif_neg h]
    refine (View.read_writes_cons_unit_of_not_mem v f inb _ L (ix2 0 q) rfl 1 ?_).trans (congrFun hX _)
    show q.val < o ∨ o + 1024 ≤ q.val
    omega

/-! ## The scratch after a point, case by case -/

theorem sout_A (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : cond0_0 i) (hc1 : cond0_1 i) (hc2 : ¬cond0_2 i) (hc3 : ¬cond0_3 i) (x0 : Vec Ideal S3x2048 .f32) (x1 : Vec Ideal S1024x3 .f32) (o : ℕ) (hoff : k0_off1 i = ![0, o]) (q : Fin 16384) :
    sout0_A_0 (F := Ideal) c i a3 h3 a4 h4 a5 h5 a6 h6 a7 h7 hc0 hc1 hc2 hc3 x0 x1 (ix2 0 q)
      = if h : o ≤ q.val ∧ q.val < o + 1024 then
          min (k0_pay6 (F := Ideal) (ix2 0 q)) ((Finset.univ : Finset (Fin 2048)).inf fun l => blockTile x0 x1 (ix2 (⟨q.val - o, by omega⟩ : Fin 1024) l))
        else k0_pay6 (F := Ideal) (ix2 0 q) := by
  unfold sout0_A_0 kernelRun0_A
  dsimp only
  sl_unfold_words
  simp only [View.readAt_eq_ld, h3.read_unread, h4.read_unread]
  have hj : ∀ (w : View sig .tc .vmem S1x16384 .f32),
      w.read (Elt Ideal) (w.writes (Elt Ideal) w.junk
        [(⟨Rect.unit ![0, 0] S1x16384.size inb_S1x16384_S1x16384_0_0, k0_pay6 (F := Ideal)⟩ : View.Piece (Elt Ideal) S1x16384 .f32)])
        = k0_pay6 (F := Ideal) := fun w => by
    rw [View.read_writes_junk_eq_canon, View.canon_unit_zero hz2]
  exact slice_step _ _ (k0_pay6 (F := Ideal)) (hj _) _ _ o hoff _ _ _ _
    (fun q' q hq => by rw [hj]; exact ld_slice _ _ _ o hoff q' q hq) q

theorem sout_B (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : ¬cond0_0 i) (hc1 : ¬cond0_1 i) (hc2 : ¬cond0_2 i) (hc3 : ¬cond0_3 i) (x0 : Vec Ideal S3x2048 .f32) (x1 : Vec Ideal S1024x3 .f32) (xo2 : Vec Ideal S1x2048 .f32) (xs0 : Vec Ideal S1x16384 .f32) (o : ℕ) (hoff : k0_off1 i = ![0, o]) (q : Fin 16384) :
    sout0_B_0 (F := Ideal) c i a3 h3 a4 h4 a5 h5 a6 h6 a7 h7 hc0 hc1 hc2 hc3 x0 x1 xo2 xs0 (ix2 0 q)
      = if h : o ≤ q.val ∧ q.val < o + 1024 then
          min (xs0 (ix2 0 q)) ((Finset.univ : Finset (Fin 2048)).inf fun l => blockTile x0 x1 (ix2 (⟨q.val - o, by omega⟩ : Fin 1024) l))
        else xs0 (ix2 0 q) := by
  unfold sout0_B_0 kernelRun0_B
  dsimp only
  sl_unfold_words
  simp only [View.readAt_eq_ld, h3.read_unread, h4.read_unread, h7.read_unread]
  exact slice_step (h7.unread xs0) [] xs0 (by rw [View.writes_nil]; exact h7.read_unread xs0) _ _ o hoff _ _ _ _
    (fun q' q hq => ld_slice xs0 _ _ o hoff q' q hq) q

theorem sout_C (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : ¬cond0_0 i) (hc1 : ¬cond0_1 i) (hc2 : cond0_2 i) (hc3 : ¬cond0_3 i) (x0 : Vec Ideal S3x2048 .f32) (x1 : Vec Ideal S1024x3 .f32) (xo2 : Vec Ideal S1x2048 .f32) (xs0 : Vec Ideal S1x16384 .f32) (o : ℕ) (hoff : k0_off1 i = ![0, o]) (q : Fin 16384) :
    sout0_C_0 (F := Ideal) c i a3 h3 a4 h4 a5 h5 a6 h6 a7 h7 hc0 hc1 hc2 hc3 x0 x1 xo2 xs0 (ix2 0 q)
      = if h : o ≤ q.val ∧ q.val < o + 1024 then
          min (xs0 (ix2 0 q)) ((Finset.univ : Finset (Fin 2048)).inf fun l => blockTile x0 x1 (ix2 (⟨q.val - o, by omega⟩ : Fin 1024) l))
        else xs0 (ix2 0 q) := by
  unfold sout0_C_0 kernelRun0_C
  dsimp only
  sl_unfold_words
  simp only [View.readAt_eq_ld, h3.read_unread, h4.read_unread, h7.read_unread]
  exact slice_step (h7.unread xs0) [] xs0 (by rw [View.writes_nil]; exact h7.read_unread xs0) _ _ o hoff _ _ _ _
    (fun q' q hq => ld_slice xs0 _ _ o hoff q' q hq) q

theorem sout_D (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : ¬cond0_0 i) (hc1 : cond0_1 i) (hc2 : ¬cond0_2 i) (hc3 : ¬cond0_3 i) (x0 : Vec Ideal S3x2048 .f32) (x1 : Vec Ideal S1024x3 .f32) (xs0 : Vec Ideal S1x16384 .f32) (o : ℕ) (hoff : k0_off1 i = ![0, o]) (q : Fin 16384) :
    sout0_D_0 (F := Ideal) c i a3 h3 a4 h4 a5 h5 a6 h6 a7 h7 hc0 hc1 hc2 hc3 x0 x1 xs0 (ix2 0 q)
      = if h : o ≤ q.val ∧ q.val < o + 1024 then
          min (xs0 (ix2 0 q)) ((Finset.univ : Finset (Fin 2048)).inf fun l => blockTile x0 x1 (ix2 (⟨q.val - o, by omega⟩ : Fin 1024) l))
        else xs0 (ix2 0 q) := by
  unfold sout0_D_0 kernelRun0_D
  dsimp only
  sl_unfold_words
  simp only [View.readAt_eq_ld, h3.read_unread, h4.read_unread, h7.read_unread]
  exact slice_step (h7.unread xs0) [] xs0 (by rw [View.writes_nil]; exact h7.read_unread xs0) _ _ o hoff _ _ _ _
    (fun q' q hq => ld_slice xs0 _ _ o hoff q' q hq) q

theorem sout_E (c : Dev nD) (i : grid0.Coords) (a3 : Memref sig .tc .vmem S3x2048 .f32) (h3 : a3.IsWhole) (a4 : Memref sig .tc .vmem S1024x3 .f32) (h4 : a4.IsWhole) (a5 : Memref sig .tc .vmem S1x2048 .f32) (h5 : a5.IsWhole) (a6 : Memref sig .tc .vmem S1x1x16384 .f32) (h6 : a6.IsWhole) (a7 : Memref sig .tc .vmem S1x16384 .f32) (h7 : a7.IsWhole) (hc0 : ¬cond0_0 i) (hc1 : ¬cond0_1 i) (hc2 : cond0_2 i) (hc3 : cond0_3 i) (x0 : Vec Ideal S3x2048 .f32) (x1 : Vec Ideal S1024x3 .f32) (xo2 : Vec Ideal S1x2048 .f32) (xs0 : Vec Ideal S1x16384 .f32) (o : ℕ) (hoff : k0_off1 i = ![0, o]) (q : Fin 16384) :
    sout0_E_0 (F := Ideal) c i a3 h3 a4 h4 a5 h5 a6 h6 a7 h7 hc0 hc1 hc2 hc3 x0 x1 xo2 xs0 (ix2 0 q)
      = if h : o ≤ q.val ∧ q.val < o + 1024 then
          min (xs0 (ix2 0 q)) ((Finset.univ : Finset (Fin 2048)).inf fun l => blockTile x0 x1 (ix2 (⟨q.val - o, by omega⟩ : Fin 1024) l))
        else xs0 (ix2 0 q) := by
  unfold sout0_E_0 kernelRun0_E
  dsimp only
  sl_unfold_words
  simp only [View.readAt_eq_ld, h3.read_unread, h4.read_unread, h7.read_unread]
  exact slice_step (h7.unread xs0) [] xs0 (by rw [View.writes_nil]; exact h7.read_unread xs0) _ _ o hoff _ _ _ _
    (fun q' q hq => ld_slice xs0 _ _ o hoff q' q hq) q

end Cert.KernelIdeal.Pieces

end
-- ==== Proof.Nearest.lean ====
/-
  The quantity both programs compute, as plain functions of the two point clouds.

  A cloud is 8 slabs of 2048 points of 3-space, point number n = slab · 2048 + position.  For a point n of the first
  cloud and a point m of the second, sqd n m is the sum of the three squared coordinate differences, accumulated
  from zero.  nearest1 m is the distance from point m of the second cloud to its nearest point of the first cloud
  (the infimum over n of √sqd n m), nearest2 n the distance from point n of the first cloud to its nearest point of
  the second.  The result is the mean of nearest1 plus the mean of nearest2, each mean a sum from zero divided by
  the number of points; that last step is the same sequence of host operations in both programs and is kept as one
  definition that is never opened.
-/
import Mathlib
import Idealize.ShloMosaic.PureOps.Ideal
import Idealize.ShloMosaic.PureOps.Ideal.Laws
import Idealize.ShloMosaic.Lib.ValueIdx
import proofs.«137904_j8701603742377_2_alg».proof.Proof.Distance

noncomputable section

namespace Cert.Chamfer

open Idealize.ShloMosaic Idealize.ShloMosaic.ValueIdx

/-- A cloud: 8 slabs of 2048 points with 3 coordinates each. -/
abbrev Cloud : Type := FVec Ideal ⟨3, ![8, 2048, 3]⟩ .f32

/-- Coordinate `d` of point `n` of a cloud, the points numbered slab by slab. -/
def pt (x : Cloud) (n : Fin 16384) (d : Fin 3) : EReal :=
  x (ix3 (⟨n.val / 2048, by omega⟩ : Fin 8) (⟨n.val % 2048, Nat.mod_lt _ (by decide)⟩ : Fin 2048) d)

/-- The squared distance between point `n` of the first cloud and point `m` of the second, accumulated from zero one
    coordinate at a time. -/
def sqd (x0 x1 : Cloud) (n m : Fin 16384) : EReal :=
  (((0 : EReal) + (pt x1 m 0 - pt x0 n 0) * (pt x1 m 0 - pt x0 n 0))
      + (pt x1 m 1 - pt x0 n 1) * (pt x1 m 1 - pt x0 n 1))
    + (pt x1 m 2 - pt x0 n 2) * (pt x1 m 2 - pt x0 n 2)

/-- The distance from point `m` of the second cloud to the nearest point of the first. -/
def nearest1 (x0 x1 : Cloud) (m : Fin 16384) : EReal :=
  (Finset.univ : Finset (Fin 16384)).inf fun n => Ideal.sqrt (sqd x0 x1 n m)

/-- The distance from point `n` of the first cloud to the nearest point of the second. -/
def nearest2 (x0 x1 : Cloud) (n : Fin 16384) : EReal :=
  (Finset.univ : Finset (Fin 16384)).inf fun m => Ideal.sqrt (sqd x0 x1 n m)

/-- The least squared distance from point `n` of the first cloud to the first `k` points of the second. -/
def rowInf (x0 x1 : Cloud) (n : Fin 16384) (k : ℕ) : EReal :=
  ((Finset.univ : Finset (Fin 16384)).filter fun m => m.val < k).inf fun m => sqd x0 x1 n m

/-- The least squared distance from point `m` of the second cloud to the points `lo ≤ n < lo + k` of the first. -/
def colInf (x0 x1 : Cloud) (m : Fin 16384) (lo k : ℕ) : EReal :=
  ((Finset.univ : Finset (Fin 16384)).filter fun n => lo ≤ n.val ∧ n.val < lo + k).inf fun n => sqd x0 x1 n m

/-- The square root commutes with a finite infimum (it is monotone and fixes the top element). -/
theorem sqrt_inf {ι : Type} (s : Finset ι) (f : ι → EReal) : Ideal.sqrt (s.inf f) = s.inf fun i => Ideal.sqrt (f i) := by
  classical
  induction s using Finset.induction_on with
  | empty => simp
  | insert a s ha ih => rw [Finset.inf_insert, Finset.inf_insert, sqrt_min, ih]

/-- The mean of one vector of 16384 entries plus the mean of another: each a host sum from zero divided by 16384.0,
    the two quotients added.  Both programs end with exactly these operations. -/
def meanPlusMean (h : (⟨1, ![16384]⟩ : Shape).ReducesTo [0] ⟨0, ![]⟩) (h0 : 0 < (⟨0, ![]⟩ : Shape).numel)
    (d1 d2 : FVec Ideal ⟨1, ![16384]⟩ .f32) : FVec Ideal ⟨0, ![]⟩ .f32 :=
  addf (F := Ideal)
    (Host.divf (F := Ideal) (Host.reduceAdd (F := Ideal) d1 (constant (F := Ideal) ⟨0, ![]⟩ .f32 0x00000000#32) h h0)
      (constant (F := Ideal) ⟨0, ![]⟩ .f32 0x46800000#32))
    (Host.divf (F := Ideal) (Host.reduceAdd (F := Ideal) d2 (constant (F := Ideal) ⟨0, ![]⟩ .f32 0x00000000#32) h h0)
      (constant (F := Ideal) ⟨0, ![]⟩ .f32 0x46800000#32))

/-- The common result: the mean nearest-neighbour distance from the second cloud into the first plus the mean from the
    first into the second. -/
def chamfer (h : (⟨1, ![16384]⟩ : Shape).ReducesTo [0] ⟨0, ![]⟩) (h0 : 0 < (⟨0, ![]⟩ : Shape).numel)
    (x0 x1 : Cloud) : FVec Ideal ⟨0, ![]⟩ .f32 :=
  meanPlusMean h h0 (fun j => nearest1 x0 x1 (j 0)) (fun j => nearest2 x0 x1 (j 0))

end Cert.Chamfer

end
-- ==== Proof.Blocks.lean ====
/-
  The blocks a grid point sees, as points of the two clouds.

  The grid has 128 points t = 64·c + 16·i + j (half c, query block i, key block j).  Before the region the first cloud is
  flattened to 16384 points and transposed to coordinate-major, the second flattened only.  At point t the first window
  holds the three coordinate rows of the 2048 first-cloud points numbered (t / 16)·2048 + l, the second window the
  1024 second-cloud points numbered (t mod 16)·1024 + r; the body's slice of the running vector starts at (t mod 16)·1024.
-/
import proofs.«137904_j8701603742377_2_alg».proof.Proof.Gen.KernelIdeal.Frame
import proofs.«137904_j8701603742377_2_alg».proof.Proof.Nearest
import proofs.«137904_j8701603742377_2_alg».proof.Proof.Pieces
import Idealize.ShloMosaic.Lib.StableHlo.Run
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.Chamfer

variable (m : (ℓ : Loc nD τ sig) → Buf (Elt Ideal) ℓ)

/-- The two clouds as the program is launched with them. -/
abbrev X0 (c : Dev nD) : Cloud := m ((c : Thread nD τ).loc main_arg0)
abbrev X1 (c : Dev nD) : Cloud := m ((c : Thread nD τ).loc main_arg1)

/-- A point number from a natural number (reduced modulo the number of points, so that no bound is owed to write it). -/
def fin14 (k : ℕ) : Fin 16384 := ⟨k % 16384, Nat.mod_lt _ (by decide)⟩
theorem fin14_val {k : ℕ} (h : k < 16384) : (fin14 k).val = k := Nat.mod_eq_of_lt h

/-- The flattened cloud at (n, d) is coordinate d of point n. -/
theorem flat_apply (X : Cloud) (h : S8x2048x3.ShapeCasts S16384x3) (n : Fin 16384) (d : Fin 3) :
    shapeCast S16384x3 X h (ix2 n d) = pt X n d := by
  unfold pt
  exact shapeCast_apply X h (ix2 n d) _ (by
    rw [Shape.rowMajor_val_three, Shape.rowMajor_val_two]
    show (n.val / 2048 * 2048 + n.val % 2048) * 3 + d.val = n.val * 3 + d.val
    omega)

/-- The flattened and transposed cloud at (d, n) is coordinate d of point n. -/
theorem flatT_apply (X : Cloud) (h : S8x2048x3.ShapeCasts S16384x3) (h' : S16384x3.Transposes [1, 0] S3x16384) (d : Fin 3) (n : Fin 16384) :
    transpose S3x16384 [1, 0] (shapeCast S16384x3 X h) h' (ix2 d n) = pt X n d :=
  (transpose_ix2_apply _ h' d n).trans (flat_apply X h n d)

/-- What the region finds in the transposed first cloud's array and in the flattened second cloud's array. -/
theorem V_v2 (c : Dev nD) : (V m c main_v2 : S3x16384.Idx → EReal)
    = transpose S3x16384 [1, 0] (shapeCast S16384x3 (X0 m c) shapeCasts_S8x2048x3_S16384x3) transposes_S16384x3_S3x16384_1_0 := by
  show StableHlo.after hostOps0 (fun b => m (c, b)) (Proc.devRef .tc main_v2) = _
  after_results
  rfl

theorem V_v1 (c : Dev nD) : (V m c main_v1 : S16384x3.Idx → EReal)
    = shapeCast S16384x3 (X1 m c) shapeCasts_S8x2048x3_S16384x3 := by
  show StableHlo.after hostOps0 (fun b => m (c, b)) (Proc.devRef .tc main_v1) = _
  after_results
  rfl

/-- Where the windows' blocks and the body's slice sit at point t, decided over the grid. -/
theorem idx0 : ∀ t : Fin cfg0.N, win0_0.index t 0 = 0 ∧ win0_0.index t 1 = t.val / 16 :=
  (by decide +kernel : ∀ t : Fin grid0.N, win0_0.index t 0 = 0 ∧ win0_0.index t 1 = t.val / 16)
theorem idx1 : ∀ t : Fin cfg0.N, win0_1.index t 0 = t.val % 16 ∧ win0_1.index t 1 = 0 :=
  (by decide +kernel : ∀ t : Fin grid0.N, win0_1.index t 0 = t.val % 16 ∧ win0_1.index t 1 = 0)
theorem idx2 : ∀ t : Fin cfg0.N, win0_2.index t 0 = 0 ∧ win0_2.index t 1 = t.val / 16 :=
  (by decide +kernel : ∀ t : Fin grid0.N, win0_2.index t 0 = 0 ∧ win0_2.index t 1 = t.val / 16)
theorem idx3 : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)
theorem off1 : ∀ t : Fin cfg0.N, k0_off1 (grid0.coords t) = ![0, t.val % 16 * 1024] :=
  (by decide +kernel : ∀ t : Fin grid0.N, k0_off1 (grid0.coords t) = ![0, t.val % 16 * 1024])

/-- The first window at point t holds coordinate d of first-cloud point (t / 16)·2048 + l at (d, l). -/
theorem iblk0_apply (c : Dev nD) (t : Fin cfg0.N) (d : Fin 3) (l : Fin 2048) :
    (iblk m c 0 t : Vec Ideal S3x2048 .f32) (ix2 d l) = pt (X0 m c) (fin14 (t.val / 16 * 2048 + l.val)) d := by
  have hN : cfg0.N = 128 := N_0
  have ht := t.isLt
  unfold iblk
  rw [View.read_apply]
  show V m c main_v2 _ = _
  rw [V_v2 m c]
  refine (congrArg _ (funext fun a => Fin.ext ?_)).trans (flatT_apply (X0 m c) _ _ d (fin14 (t.val / 16 * 2048 + l.val)))
  match a with
  | ⟨0, _⟩ => show win0_0.index t 0 * 3 + 1 * d.val = d.val; rw [(idx0 t).1]; omega
  | ⟨1, _⟩ =>
    show win0_0.index t 1 * 2048 + 1 * l.val = (t.val / 16 * 2048 + l.val) % 16384
    rw [(idx0 t).2]; have := l.isLt; omega

/-- The second window at point t holds coordinate d of second-cloud point (t mod 16)·1024 + r at (r, d). -/
theorem iblk1_apply (c : Dev nD) (t : Fin cfg0.N) (r : Fin 1024) (d : Fin 3) :
    (iblk m c 1 t : Vec Ideal S1024x3 .f32) (ix2 r d) = pt (X1 m c) (fin14 (t.val % 16 * 1024 + r.val)) d := by
  have hN : cfg0.N = 128 := N_0
  have ht := t.isLt
  unfold iblk
  rw [View.read_apply]
  show V m c main_v1 _ = _
  rw [V_v1 m c]
  refine (congrArg _ (funext fun a => Fin.ext ?_)).trans (flat_apply (X1 m c) _ (fin14 (t.val % 16 * 1024 + r.val)) d)
  match a with
  | ⟨0, _⟩ =>
    show win0_1.index t 0 * 1024 + 1 * r.val = (t.val % 16 * 1024 + r.val) % 16384
    rw [(idx1 t).1]; have := r.isLt; omega
  | ⟨1, _⟩ => show win0_1.index t 1 * 3 + 1 * d.val = d.val; rw [(idx1 t).2]; omega

/-- The tile of point t: at (r, l) the squared distance between first-cloud point (t / 16)·2048 + l and second-cloud
    point (t mod 16)·1024 + r. -/
theorem tile_eq_sqd (c : Dev nD) (t : Fin cfg0.N) (r : Fin 1024) (l : Fin 2048) :
    Pieces.blockTile (iblk m c 0 t) (iblk m c 1 t) (ix2 r l)
      = sqd (X0 m c) (X1 m c) (fin14 (t.val / 16 * 2048 + l.val)) (fin14 (t.val % 16 * 1024 + r.val)) := by
  rw [Pieces.blockTile_apply, iblk0_apply, iblk0_apply, iblk0_apply, iblk1_apply, iblk1_apply, iblk1_apply]
  rfl

end Cert.KernelIdeal.Blocks

end
-- ==== Proof.InfBlocks.lean ====
/-
  Finite infima of extended reals accumulated block by block.

  The infimum of a function over the indices below (j+1)·B is the smaller of its infimum over the indices below j·B
  and its infimum over the next block of B indices; over no indices it is the top element.  Applied to the squared
  distances, this gives the step-by-step accumulation of the least squared distance along a row (blocks of 1024
  columns) and along a column (blocks of 2048 rows, the rows taken in two halves of 8192), and, the square root being
  monotone, the nearest-point distances as square roots of those least squared distances.
-/
import Mathlib
import proofs.«137904_j8701603742377_2_alg».proof.Proof.Nearest

noncomputable section

namespace Cert.Chamfer

open Idealize.ShloMosaic

/-- Enlarging an index set by one block: if every index of the larger set `Q` either lies in the smaller set `P` or
    is hit by the block enumeration `g`, and `P` and the block both sit inside `Q`, then the infimum over `Q` is the
    smaller of the infimum over `P` and the infimum over the block. -/
private theorem inf_filter_step {N B : ℕ} (f : Fin N → EReal) (P Q : Fin N → Prop) [DecidablePred P] [DecidablePred Q]
    (g : Fin B → Fin N) (hPQ : ∀ m, P m → Q m) (hgQ : ∀ r, Q (g r))
    (hcov : ∀ m, Q m → P m ∨ ∃ r, g r = m) :
    min (((Finset.univ : Finset (Fin N)).filter P).inf f) ((Finset.univ : Finset (Fin B)).inf fun r => f (g r))
      = ((Finset.univ : Finset (Fin N)).filter Q).inf f := by
  apply le_antisymm
  · apply Finset.le_inf
    intro m hm
    have hQ : Q m := (Finset.mem_filter.mp hm).2
    rcases hcov m hQ with hP | ⟨r, hr⟩
    · exact le_trans (min_le_left _ _) (Finset.inf_le (Finset.mem_filter.mpr ⟨Finset.mem_univ _, hP⟩))
    · subst hr
      exact le_trans (min_le_right _ _) (Finset.inf_le (f := fun r => f (g r)) (Finset.mem_univ r))
  · apply le_min
    · apply Finset.le_inf
      intro m hm
      exact Finset.inf_le (Finset.mem_filter.mpr ⟨Finset.mem_univ _, hPQ m (Finset.mem_filter.mp hm).2⟩)
    · apply Finset.le_inf
      intro r _
      exact Finset.inf_le (Finset.mem_filter.mpr ⟨Finset.mem_univ _, hgQ r⟩)

/-- Over no columns at all the running infimum is the top element. -/
theorem rowInf_zero (x0 x1 : Cloud) (n : Fin 16384) : rowInf x0 x1 n 0 = ⊤ := by
  unfold rowInf
  exact top_le_iff.mp (Finset.le_inf fun m hm => absurd (Finset.mem_filter.mp hm).2 (Nat.not_lt_zero _))

/-- One more block of 1024 columns: the infimum over the first (j+1)·1024 columns is the smaller of the infimum over
    the first j·1024 and the infimum over the block j·1024 ≤ m < (j+1)·1024, enumerated by `g`. -/
theorem rowInf_step (x0 x1 : Cloud) (n : Fin 16384) (j : ℕ) (g : Fin 1024 → Fin 16384)
    (hg : ∀ r, (g r).val = j * 1024 + r.val) :
    min (rowInf x0 x1 n (j * 1024)) ((Finset.univ : Finset (Fin 1024)).inf fun r => sqd x0 x1 n (g r))
      = rowInf x0 x1 n ((j + 1) * 1024) := by
  unfold rowInf
  refine inf_filter_step (fun m => sqd x0 x1 n m) (fun m => m.val < j * 1024) (fun m => m.val < (j + 1) * 1024) g
    ?_ ?_ ?_
  · intro m hm
    show m.val < (j + 1) * 1024
    have : m.val < j * 1024 := hm
    omega
  · intro r
    show (g r).val < (j + 1) * 1024
    have h1 := hg r
    have h2 := r.isLt
    omega
  · intro m hm
    have hm' : m.val < (j + 1) * 1024 := hm
    by_cases hlt : m.val < j * 1024
    · exact Or.inl hlt
    · have hr : m.val - j * 1024 < 1024 := by omega
      refine Or.inr ⟨⟨m.val - j * 1024, hr⟩, Fin.ext ?_⟩
      have h : (g ⟨m.val - j * 1024, hr⟩).val = j * 1024 + (m.val - j * 1024) := hg _
      omega

/-- Over no rows at all the running infimum is the top element. -/
theorem colInf_zero (x0 x1 : Cloud) (m : Fin 16384) (lo : ℕ) : colInf x0 x1 m lo 0 = ⊤ := by
  unfold colInf
  refine top_le_iff.mp (Finset.le_inf fun n hn => ?_)
  have h : lo ≤ n.val ∧ n.val < lo + 0 := (Finset.mem_filter.mp hn).2
  omega

/-- One more block of 2048 rows: the infimum over the rows lo ≤ n < lo + (i+1)·2048 is the smaller of the infimum over
    lo ≤ n < lo + i·2048 and the infimum over the block lo + i·2048 ≤ n < lo + (i+1)·2048, enumerated by `g`. -/
theorem colInf_step (x0 x1 : Cloud) (m : Fin 16384) (lo i : ℕ) (g : Fin 2048 → Fin 16384)
    (hg : ∀ l, (g l).val = lo + i * 2048 + l.val) :
    min (colInf x0 x1 m lo (i * 2048)) ((Finset.univ : Finset (Fin 2048)).inf fun l => sqd x0 x1 (g l) m)
      = colInf x0 x1 m lo ((i + 1) * 2048) := by
  unfold colInf
  refine inf_filter_step (fun n => sqd x0 x1 n m) (fun n => lo ≤ n.val ∧ n.val < lo + i * 2048)
    (fun n => lo ≤ n.val ∧ n.val < lo + (i + 1) * 2048) g ?_ ?_ ?_
  · intro n hn
    show lo ≤ n.val ∧ n.val < lo + (i + 1) * 2048
    have : lo ≤ n.val ∧ n.val < lo + i * 2048 := hn
    omega
  · intro l
    show lo ≤ (g l).val ∧ (g l).val < lo + (i + 1) * 2048
    have h1 := hg l
    have h2 := l.isLt
    omega
  · intro n hn
    have hn' : lo ≤ n.val ∧ n.val < lo + (i + 1) * 2048 := hn
    by_cases hlt : n.val < lo + i * 2048
    · exact Or.inl ⟨hn'.1, hlt⟩
    · have hl : n.val - (lo + i * 2048) < 2048 := by omega
      refine Or.inr ⟨⟨n.val - (lo + i * 2048), hl⟩, Fin.ext ?_⟩
      have h : (g ⟨n.val - (lo + i * 2048), hl⟩).val = lo + i * 2048 + (n.val - (lo + i * 2048)) := hg _
      omega

/-- The nearest-point distance along a row is the square root of the least squared distance over all 16384 columns. -/
theorem nearest2_eq (x0 x1 : Cloud) (n : Fin 16384) : nearest2 x0 x1 n = Ideal.sqrt (rowInf x0 x1 n 16384) := by
  unfold nearest2 rowInf
  have hall : ((Finset.univ : Finset (Fin 16384)).filter fun m => m.val < 16384) = Finset.univ :=
    Finset.filter_true_of_mem fun m _ => m.isLt
  rw [hall, sqrt_inf]

/-- The nearest-point distance along a column is the smaller of the square roots of the least squared distances over
    the two halves 0 ≤ n < 8192 and 8192 ≤ n < 16384 of the rows. -/
theorem nearest1_eq (x0 x1 : Cloud) (m : Fin 16384) :
    nearest1 x0 x1 m = min (Ideal.sqrt (colInf x0 x1 m 0 8192)) (Ideal.sqrt (colInf x0 x1 m 8192 8192)) := by
  have h : min (colInf x0 x1 m 0 8192) (colInf x0 x1 m 8192 8192)
      = (Finset.univ : Finset (Fin 16384)).inf fun n => sqd x0 x1 n m := by
    unfold colInf
    apply le_antisymm
    · apply Finset.le_inf
      intro n _
      have hn := n.isLt
      by_cases hlt : n.val < 8192
      · exact le_trans (min_le_left _ _)
          (Finset.inf_le (Finset.mem_filter.mpr ⟨Finset.mem_univ _, by omega, by omega⟩))
      · exact le_trans (min_le_right _ _)
          (Finset.inf_le (Finset.mem_filter.mpr ⟨Finset.mem_univ _, by omega, by omega⟩))
    · exact le_min (Finset.inf_mono (Finset.filter_subset _ _)) (Finset.inf_mono (Finset.filter_subset _ _))
  unfold nearest1
  rw [← sqrt_min, h, sqrt_inf]

end Cert.Chamfer

end
-- ==== Proof.Sweep.lean ====
/-
  The accumulation across the grid.

  Points are numbered n = 64·c + 16·i + j.  After point n
    * the row of 2048 running minima holds, at l, the least squared distance from first-cloud point (n / 16)·2048 + l to
      the first (j + 1)·1024 points of the second cloud — and, once j = 15, the square root of the least over all of them;
    * the vector of 16384 running minima holds, at q, the least squared distance from second-cloud point q to the
      first-cloud points of half c numbered below (i + 1)·2048 within the half if q's key block has been visited in this
      sweep (q < (j + 1)·1024), below i·2048 otherwise;
    * at the last point of a half, output 3 holds the square root of that vector, then complete for the half.
  Each case of the body advances these by one block; the statement follows by induction on the point.
-/
import proofs.«137904_j8701603742377_2_alg».proof.Proof.Slices
import proofs.«137904_j8701603742377_2_alg».proof.Proof.Blocks
import proofs.«137904_j8701603742377_2_alg».proof.Proof.InfBlocks

set_option maxRecDepth 16384

noncomputable section

open Idealize.ShloMosaic Idealize.ShloMosaic.TcCoe Idealize.SL.Sem Idealize.ShloMosaic.ValueIdx

namespace Cert.KernelIdeal.Sweep

open Cert.KernelIdeal Cert.KernelIdeal.Gen Cert.Chamfer Cert.KernelIdeal.Blocks

variable (m : (ℓ : Loc nD τ sig) → Buf (Elt Ideal) ℓ)

/-- The row of running minima after point n. -/
def rowAfter (c : Dev nD) (n : ℕ) (l : Fin 2048) : EReal :=
  if n % 16 = 15 then Ideal.sqrt (rowInf (X0 m c) (X1 m c) (fin14 (n / 16 * 2048 + l.val)) 16384)
  else rowInf (X0 m c) (X1 m c) (fin14 (n / 16 * 2048 + l.val)) ((n % 16 + 1) * 1024)

/-- The vector of running minima after point n. -/
def colAfter (c : Dev nD) (n : ℕ) (q : Fin 16384) : EReal :=
  colInf (X0 m c) (X1 m c) q (n / 64 * 8192) ((n % 64 / 16 + (if q.val < (n % 16 + 1) * 1024 then 1 else 0)) * 2048)

/-- What the three carried buffers hold after point n. -/
def Inv (c : Dev nD) (n : ℕ) (h : n < cfg0.N) : Prop :=
  (∀ l : Fin 2048, (outsAt0 m c n h).1 (ix2 0 l) = rowAfter m c n l)
  ∧ (∀ q : Fin 16384, (outsAt0 m c n h).2.2 (ix2 0 q) = colAfter m c n q)
  ∧ (n % 64 = 63 → ∀ q : Fin 16384, (outsAt0 m c n h).2.1 (ix3 0 0 q)
      = Ideal.sqrt (colInf (X0 m c) (X1 m c) q (n / 64 * 8192) 8192))

/-- The row after the point before, when this point is not the first of its sweep. -/
theorem rowPrev (c : Dev nD) (t : ℕ) (h16 : ¬t % 16 = 0) (l : Fin 2048) :
    rowAfter m c (t - 1) l = rowInf (X0 m c) (X1 m c) (fin14 (t / 16 * 2048 + l.val)) (t % 16 * 1024) := by
  have e1 : (t - 1) % 16 + 1 = t % 16 := by omega
  have e2 : (t - 1) / 16 = t / 16 := by omega
  unfold rowAfter
  rw [if_neg (by omega), e1, e2]

/-- The vector after the point before, when this point is not the first of its half. -/
theorem colPrev (c : Dev nD) (t : ℕ) (h64 : ¬t % 64 = 0) (q : Fin 16384) :
    colAfter m c (t - 1) q
      = colInf (X0 m c) (X1 m c) q (t / 64 * 8192) ((t % 64 / 16 + (if q.val < t % 16 * 1024 then 1 else 0)) * 2048) := by
  have hq := q.isLt
  have ea : (t - 1) / 64 = t / 64 := by omega
  unfold colAfter
  rw [ea]
  by_cases h16 : t % 16 = 0
  · have eb : ((t - 1) % 64 / 16 + 1) * 2048 = (t % 64 / 16 + 0) * 2048 := by omega
    rw [if_pos (by omega), if_neg (by omega), eb]
  · have e1 : (t - 1) % 16 + 1 = t % 16 := by omega
    have e2 : (t - 1) % 64 / 16 = t % 64 / 16 := by omega
    rw [e1, e2]

/-- One point lowers the row by the tile's column minima: the partial infimum grows by one key block. -/
theorem row_lower (c : Dev nD) (t : Fin cfg0.N) (l : Fin 2048) (p : EReal)
    (hp : p = rowInf (X0 m c) (X1 m c) (fin14 (t.val / 16 * 2048 + l.val)) (t.val % 16 * 1024)) :
    min p ((Finset.univ : Finset (Fin 1024)).inf fun r => Pieces.blockTile (iblk m c 0 t) (iblk m c 1 t) (ix2 r l))
      = rowInf (X0 m c) (X1 m c) (fin14 (t.val / 16 * 2048 + l.val)) ((t.val % 16 + 1) * 1024) := by
  rw [hp]
  rw [Finset.inf_congr rfl (fun r _ => tile_eq_sqd m c t r l)]
  exact rowInf_step _ _ _ (t.val % 16) (fun r => fin14 (t.val % 16 * 1024 + r.val))
    (fun r => fin14_val (by have := r.isLt; omega))

/-- One point lowers the visited slice of the vector by the tile's row minima: the partial infimum grows by one query block. -/
theorem col_lower (c : Dev nD) (t : Fin cfg0.N) (q : Fin 16384) (hq : t.val % 16 * 1024 ≤ q.val ∧ q.val < t.val % 16 * 1024 + 1024)
    (p : EReal) (hp : p = colInf (X0 m c) (X1 m c) q (t.val / 64 * 8192) (t.val % 64 / 16 * 2048)) :
    min p ((Finset.univ : Finset (Fin 2048)).inf fun l =>
        Pieces.blockTile (iblk m c 0 t) (iblk m c 1 t) (ix2 (⟨q.val - t.val % 16 * 1024, by omega⟩ : Fin 1024) l))
      = colInf (X0 m c) (X1 m c) q (t.val / 64 * 8192) ((t.val % 64 / 16 + 1) * 2048) := by
  rw [hp]
  have hN : cfg0.N = 128 := N_0
  have ht := t.isLt
  have eq' : fin14 (t.val % 16 * 1024 + (q.val - t.val % 16 * 1024)) = q := Fin.ext (by
    show (t.val % 16 * 1024 + (q.val - t.val % 16 * 1024)) % 16384 = q.val
    have := q.isLt; omega)
  rw [Finset.inf_congr rfl (fun l _ => (tile_eq_sqd m c t _ l).trans (by
    show sqd _ _ _ (fin14 (t.val % 16 * 1024 + (q.val - t.val % 16 * 1024))) = _
    rw [eq']))]
  exact colInf_step _ _ q (t.val / 64 * 8192) (t.val % 64 / 16) (fun l => fin14 (t.val / 16 * 2048 + l.val))
    (fun l => (fin14_val (by have := l.isLt; omega)).trans (by omega))

/-- The vector after a point that carries it over: the slice lowered, the rest as it was. -/
theorem col_step (c : Dev nD) (t : Fin cfg0.N) (h64 : ¬t.val % 64 = 0) (q : Fin 16384) (prev : Vec Ideal S1x16384 .f32)
    (hprev : prev (ix2 0 q) = colAfter m c (t.val - 1) q) :
    (if h : t.val % 16 * 1024 ≤ q.val ∧ q.val < t.val % 16 * 1024 + 1024 then
        min (prev (ix2 0 q)) ((Finset.univ : Finset (Fin 2048)).inf fun l =>
          Pieces.blockTile (iblk m c 0 t) (iblk m c 1 t) (ix2 (⟨q.val - t.val % 16 * 1024, by omega⟩ : Fin 1024) l))
      else prev (ix2 0 q)) = colAfter m c t.val q := by
  rw [hprev, colPrev m c t.val h64 q]
  have e : (t.val % 16 + 1) * 1024 = t.val % 16 * 1024 + 1024 := by omega
  unfold colAfter
  rw [e]
  by_cases h : t.val % 16 * 1024 ≤ q.val ∧ q.val < t.val % 16 * 1024 + 1024
  · rw [dif_pos h, if_neg (by omega), if_pos h.2]
    exact col_lower m c t q h _ (by rw [Nat.add_zero])
  · rw [dif_neg h]
    by_cases h' : q.val < t.val % 16 * 1024
    · rw [if_pos h', if_pos (by omega)]
    · rw [if_neg h', if_neg (by omega)]

/-! ## The five cases -/

theorem step_A (c : Dev nD) (t : Fin cfg0.N) (h0 : t.val % 64 = 0) (h1 : t.val % 16 = 0) (h2 : ¬t.val % 16 = 15) (h3 : ¬t.val % 64 = 63) :
    Inv m c t.val t.isLt := by
  unfold Inv
  rw [outsAt0_A m c t h0 h1 h2 h3]
  refine ⟨fun l => ?_, fun q => ?_, fun h63 => absurd h63 h3⟩
  · dsimp only
    rw [Pieces.out_A_2 c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t)]
    refine (Tile.colmin_apply (Pieces.P8 (iblk m c 0 t) (iblk m c 1 t)) (Pieces.P9 (iblk m c 1 t)) (Pieces.P10 (iblk m c 0 t)) _ l).trans ?_
    rw [Tile.topRow_apply]
    unfold rowAfter
    rw [if_neg h2]
    exact row_lower m c t l ⊤ (by rw [h1, Nat.zero_mul, rowInf_zero])
  · dsimp only
    rw [Pieces.sout_A c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (t.val % 16 * 1024) (off1 t) q]
    rw [Tile.topAll_apply]
    unfold colAfter
    have e : (t.val % 16 + 1) * 1024 = t.val % 16 * 1024 + 1024 := by omega
    have e64 : t.val % 64 / 16 = 0 := by omega
    rw [e]
    by_cases h : t.val % 16 * 1024 ≤ q.val ∧ q.val < t.val % 16 * 1024 + 1024
    · rw [dif_pos h, if_pos h.2]
      exact col_lower m c t q h ⊤ (by rw [e64, Nat.zero_mul, colInf_zero])
    · rw [dif_neg h, if_neg (by omega), e64, Nat.add_zero, Nat.zero_mul, colInf_zero]

theorem step_B (c : Dev nD) (t : Fin cfg0.N) (h0 : ¬t.val % 64 = 0) (h1 : ¬t.val % 16 = 0) (h2 : ¬t.val % 16 = 15) (h3 : ¬t.val % 64 = 63)
    (ih : Inv m c (t.val - 1) (Nat.lt_of_le_of_lt (Nat.sub_le _ _) t.isLt)) : Inv m c t.val t.isLt := by
  obtain ⟨ih1, ihS, -⟩ := ih
  unfold Inv
  rw [outsAt0_B m c t h0 h1 h2 h3]
  refine ⟨fun l => ?_, fun q => ?_, fun h63 => absurd h63 h3⟩
  · dsimp only
    rw [Pieces.out_B_2 c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2]
    refine (Tile.colmin_apply (Pieces.P8 (iblk m c 0 t) (iblk m c 1 t)) (Pieces.P9 (iblk m c 1 t)) (Pieces.P10 (iblk m c 0 t)) _ l).trans ?_
    unfold rowAfter
    rw [if_neg h2]
    exact row_lower m c t l _ ((ih1 l).trans (rowPrev m c t.val h1 l))
  · dsimp only
    rw [Pieces.sout_B c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2 (t.val % 16 * 1024) (off1 t) q]
    exact col_step m c t h0 q _ (ihS q)

theorem step_C (c : Dev nD) (t : Fin cfg0.N) (h0 : ¬t.val % 64 = 0) (h1 : ¬t.val % 16 = 0) (h2 : t.val % 16 = 15) (h3 : ¬t.val % 64 = 63)
    (ih : Inv m c (t.val - 1) (Nat.lt_of_le_of_lt (Nat.sub_le _ _) t.isLt)) : Inv m c t.val t.isLt := by
  obtain ⟨ih1, ihS, -⟩ := ih
  unfold Inv
  rw [outsAt0_C m c t h0 h1 h2 h3]
  refine ⟨fun l => ?_, fun q => ?_, fun h63 => absurd h63 h3⟩
  · dsimp only
    rw [Pieces.out_C_2 c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2]
    refine (Tile.sqrtRow_apply _ l).trans ?_
    unfold rowAfter
    rw [if_pos h2]
    refine congrArg Ideal.sqrt ?_
    refine (Tile.colmin_apply (Pieces.P8 (iblk m c 0 t) (iblk m c 1 t)) (Pieces.P9 (iblk m c 1 t)) (Pieces.P10 (iblk m c 0 t)) _ l).trans ?_
    refine (row_lower m c t l _ ((ih1 l).trans (rowPrev m c t.val h1 l))).trans ?_
    rw [h2]
  · dsimp only
    rw [Pieces.sout_C c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2 (t.val % 16 * 1024) (off1 t) q]
    exact col_step m c t h0 q _ (ihS q)

theorem step_D (c : Dev nD) (t : Fin cfg0.N) (h0 : ¬t.val % 64 = 0) (h1 : t.val % 16 = 0) (h2 : ¬t.val % 16 = 15) (h3 : ¬t.val % 64 = 63)
    (ih : Inv m c (t.val - 1) (Nat.lt_of_le_of_lt (Nat.sub_le _ _) t.isLt)) : Inv m c t.val t.isLt := by
  obtain ⟨-, ihS, -⟩ := ih
  unfold Inv
  rw [outsAt0_D m c t h0 h1 h2 h3]
  refine ⟨fun l => ?_, fun q => ?_, fun h63 => absurd h63 h3⟩
  · dsimp only
    rw [Pieces.out_D_2 c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (outsAt0 m c (t.val - 1) (Nat.lt_of_le_of_lt (Nat.sub_le _ _) t.isLt)).2.2]
    refine (Tile.colmin_apply (Pieces.P8 (iblk m c 0 t) (iblk m c 1 t)) (Pieces.P9 (iblk m c 1 t)) (Pieces.P10 (iblk m c 0 t)) _ l).trans ?_
    rw [Tile.topRow_apply]
    unfold rowAfter
    rw [if_neg h2]
    exact row_lower m c t l ⊤ (by rw [h1, Nat.zero_mul, rowInf_zero])
  · dsimp only
    rw [Pieces.sout_D c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (outsAt0 m c (t.val - 1) (Nat.lt_of_le_of_lt (Nat.sub_le _ _) t.isLt)).2.2 (t.val % 16 * 1024) (off1 t) q]
    exact col_step m c t h0 q _ (ihS q)

theorem step_E (c : Dev nD) (t : Fin cfg0.N) (h0 : ¬t.val % 64 = 0) (h1 : ¬t.val % 16 = 0) (h2 : t.val % 16 = 15) (h3 : t.val % 64 = 63)
    (ih : Inv m c (t.val - 1) (Nat.lt_of_le_of_lt (Nat.sub_le _ _) t.isLt)) : Inv m c t.val t.isLt := by
  obtain ⟨ih1, ihS, -⟩ := ih
  have hS : ∀ q : Fin 16384, sout0_E_0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      ((hcond0_2 t).mpr h2) ((hcond0_3 t).mpr h3) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2 (ix2 0 q) = colAfter m c t.val q := fun q => by
    rw [Pieces.sout_E c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2 (t.val % 16 * 1024) (off1 t) q]
    exact col_step m c t h0 q _ (ihS q)
  unfold Inv
  rw [outsAt0_E m c t h0 h1 h2 h3]
  refine ⟨fun l => ?_, fun q => ?_, fun _ q => ?_⟩
  · dsimp only
    rw [Pieces.out_E_2 c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2]
    refine (Tile.sqrtRow_apply _ l).trans ?_
    unfold rowAfter
    rw [if_pos h2]
    refine congrArg Ideal.sqrt ?_
    refine (Tile.colmin_apply (Pieces.P8 (iblk m c 0 t) (iblk m c 1 t)) (Pieces.P9 (iblk m c 1 t)) (Pieces.P10 (iblk m c 0 t)) _ l).trans ?_
    refine (row_lower m c t l _ ((ih1 l).trans (rowPrev m c t.val h1 l))).trans ?_
    rw [h2]
  · dsimp only
    exact hS q
  · dsimp only
    rw [Pieces.out_E_3 c (grid0.coords t) (ms0_0 t) (hs0_0 t) (ms0_1 t) (hs0_1 t) (ms0_2 t) (hs0_2 t) (ms0_3 t) (hs0_3 t) scM0_0 (Memref.isWhole_whole _) _ _ _ _ (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2]
    refine (Tile.sqrtAll_apply _ q).trans ?_
    rw [hS q]
    unfold colAfter
    have hq := q.isLt
    have e : (t.val % 64 / 16 + 1) * 2048 = 8192 := by omega
    rw [if_pos (by omega), e]

/-- After every point the carried buffers hold the stated partial infima. -/
theorem sweep (c : Dev nD) : ∀ (n : ℕ) (h : n < cfg0.N), Inv m c n h
  | 0, h => step_A m c ⟨0, h⟩ rfl rfl (by show ¬ 0 % 16 = 15; decide) (by show ¬ 0 % 64 = 63; decide)
  | n + 1, h => by
    have hN : cfg0.N = 128 := N_0
    have ih : Inv m c ((⟨n + 1, h⟩ : Fin cfg0.N).val - 1) (Nat.lt_of_le_of_lt (Nat.sub_le _ _) (⟨n + 1, h⟩ : Fin cfg0.N).isLt) :=
      sweep c n (Nat.lt_of_succ_lt h)
    by_cases h0 : (n + 1) % 64 = 0
    · exact step_A m c ⟨n + 1, h⟩ h0 (by dsimp only; omega) (by dsimp only; omega) (by dsimp only; omega)
    · by_cases h1 : (n + 1) % 16 = 0
      · exact step_D m c ⟨n + 1, h⟩ h0 h1 (by dsimp only; omega) (by dsimp only; omega) ih
      · by_cases h2 : (n + 1) % 16 = 15
        · by_cases h3 : (n + 1) % 64 = 63
          · exact step_E m c ⟨n + 1, h⟩ h0 h1 h2 h3 ih
          · exact step_C m c ⟨n + 1, h⟩ h0 h1 h2 h3 ih
        · exact step_B m c ⟨n + 1, h⟩ h0 h1 h2 (by dsimp only; omega) ih

end Cert.KernelIdeal.Sweep

end
-- ==== Proof.Final.lean ====
/-
  The two output arrays after the run, and the lines after the region.

  Output 2 is written back at the last key block of each sweep: block t / 16 of the row vector ends holding, at l, the
  square root of the least squared distance from first-cloud point (t / 16)·2048 + l to the whole second cloud — the
  nearest-neighbour distance of that point.  Output 3 is written back at the last point of each half: row c ends holding,
  at q, the square root of the least squared distance from second-cloud point q to the first-cloud points of half c.
  The lines after the region take the smaller of the two rows (the square root being monotone, the nearest-neighbour
  distance over the whole first cloud), and add the two means.
-/
import proofs.«137904_j8701603742377_2_alg».proof.Proof.Sweep
import Idealize.ShloMosaic.Lib.StableHlo.Run
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Chamfer Cert.KernelIdeal.Blocks

variable (m : (ℓ : Loc nD τ sig) → Buf (Elt Ideal) ℓ) (ρ : Dev nD → PrngReg)

/-- Output 2 after the run: the nearest-neighbour distance of each first-cloud point. -/
@[irreducible] def row2 (c : Dev nD) : S1x16384.Idx → Elt Ideal .f32 := fun y => nearest2 (X0 m c) (X1 m c) (fin14 (y 1).val)

/-- Output 3 after the run: per half of the first cloud, the distance from each second-cloud point to the half. -/
@[irreducible] def rows3 (c : Dev nD) : S2x1x16384.Idx → Elt Ideal .f32 := fun y =>
  Ideal.sqrt (colInf (X0 m c) (X1 m c) (fin14 (y 2).val) ((y 0).val * 8192) 8192)

/-- What a sweep's last point writes back to output 2 is its block of `row2`. -/
theorem flushed2_eq (c : Dev nD) (t : Fin cfg0.N) (hf : (cfg0.win 2).flush t = true) :
    (dats m 0 c).flushed 2 t = ((cfg0.win 2).blk t).view.read (Elt Ideal) (row2 m c) := by
  have h15 : t.val % 16 = 15 := (flush0_2 t).mp hf
  have hN : cfg0.N = 128 := N_0
  have ht := t.isLt
  show (cfg0.win 2).cut (grid0.coords t) ((dats m 0 c).after 2 t) = _
  rw [after0_2]
  show (outsAt0 m c t.val t.isLt).1 = _
  funext y
  obtain ⟨u, l, rfl⟩ : ∃ (u : Fin 1) (l : Fin 2048), y = ix2 u l := ⟨y 0, y 1, eq_ix2 y⟩
  obtain rfl : u = 0 := Subsingleton.elim _ _
  rw [View.read_apply]
  show (outsAt0 m c t.val t.isLt).1 (ix2 (0 : Fin 1) l) = row2 m c (((cfg0.win 2).blk t).view.emb (ix2 (0 : Fin 1) l))
  refine ((Sweep.sweep m c t.val t.isLt).1 l).trans ?_
  unfold Sweep.rowAfter
  rw [if_pos h15, ← nearest2_eq]
  unfold row2
  have e1 : ((((cfg0.win 2).blk t).view.emb (ix2 (0 : Fin 1) l)) 1).val = t.val / 16 * 2048 + l.val := by
    show win0_2.index t 1 * 2048 + 1 * l.val = _
    rw [(idx2 t).2]; omega
  rw [e1]

/-- Every entry of output 2 lies in the block some sweep's last point writes back. -/
theorem cover2 (c : Dev nD) (i : S1x16384.Idx) :
    ∃ t : Fin cfg0.N, (cfg0.win 2).flush t = true ∧ i ∈ ((cfg0.win 2).blk t).view.set := by
  have hN : cfg0.N = 128 := N_0
  have hi0 : (i 0).val < 1 := (i 0).isLt
  have hi1 : (i 1).val < 16384 := (i 1).isLt
  obtain ⟨t, htv⟩ : ∃ t : Fin cfg0.N, t.val = 16 * ((i 1).val / 2048) + 15 := ⟨⟨16 * ((i 1).val / 2048) + 15, by omega⟩, rfl⟩
  refine ⟨t, (flush0_2 t).mpr (by omega), ?_⟩
  show i ∈ ((View.whole main_v3_0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [(idx2 t).1]; omega
  | ⟨1, _⟩ =>
    show win0_2.index t 1 * 2048 ≤ (i 1).val ∧ (i 1).val < win0_2.index t 1 * 2048 + 2048
    rw [(idx2 t).2]; omega

/-- Output 2 ends holding `row2`. -/
theorem final2 (c : Dev nD) : (dats m 0 c).arrAt 2 cfg0.N = row2 m c :=
  (dats m 0 c).arrAt_eq_of_cover 2 (row2 m c) (flushed2_eq m c) (cover2 c)

/-- What a half's last point writes back to output 3 is its row of `rows3`. -/
theorem flushed3_eq (c : Dev nD) (t : Fin cfg0.N) (hf : (cfg0.win 3).flush t = true) :
    (dats m 0 c).flushed 3 t = ((cfg0.win 3).blk t).view.read (Elt Ideal) (rows3 m c) := by
  have h63 : t.val % 64 = 63 := (flush0_3 t).mp hf
  have hN : cfg0.N = 128 := N_0
  have ht := t.isLt
  show (cfg0.win 3).cut (grid0.coords t) ((dats m 0 c).after 3 t) = _
  rw [after0_3]
  show (outsAt0 m c t.val t.isLt).2.1 = _
  funext y
  obtain ⟨u, v, q, rfl⟩ : ∃ (u : Fin 1) (v : Fin 1) (q : Fin 16384), y = ix3 u v q := ⟨y 0, y 1, y 2, eq_ix3 y⟩
  obtain rfl : u = 0 := Subsingleton.elim _ _
  obtain rfl : v = 0 := Subsingleton.elim _ _
  rw [View.read_apply]
  show (outsAt0 m c t.val t.isLt).2.1 (ix3 (0 : Fin 1) (0 : Fin 1) q)
    = rows3 m c (((cfg0.win 3).blk t).view.emb (ix3 (0 : Fin 1) (0 : Fin 1) q))
  refine ((Sweep.sweep m c t.val t.isLt).2.2 h63 q).trans ?_
  unfold rows3
  have e2 : fin14 ((((cfg0.win 3).blk t).view.emb (ix3 (0 : Fin 1) (0 : Fin 1) q)) 2).val = q := Fin.ext (by
    show (win0_3.index t 2 * 16384 + 1 * q.val) % 16384 = q.val
    rw [(idx3 t).2.2]; have := q.isLt; omega)
  have e0 : ((((cfg0.win 3).blk t).view.emb (ix3 (0 : Fin 1) (0 : Fin 1) q)) 0).val * 8192 = t.val / 64 * 8192 := by
    show (win0_3.index t 0 * 1 + 1 * 0) * 8192 = _
    rw [(idx3 t).1]; omega
  rw [e2, e0]

/-- Every entry of output 3 lies in the row some half's last point writes back. -/
theorem cover3 (c : Dev nD) (i : S2x1x16384.Idx) :
    ∃ t : Fin cfg0.N, (cfg0.win 3).flush t = true ∧ i ∈ ((cfg0.win 3).blk t).view.set := by
  have hN : cfg0.N = 128 := N_0
  have hi0 : (i 0).val < 2 := (i 0).isLt
  have hi1 : (i 1).val < 1 := (i 1).isLt
  have hi2 : (i 2).val < 16384 := (i 2).isLt
  obtain ⟨t, htv⟩ : ∃ t : Fin cfg0.N, t.val = 64 * (i 0).val + 63 := ⟨⟨64 * (i 0).val + 63, by omega⟩, rfl⟩
  refine ⟨t, (flush0_3 t).mpr (by omega), ?_⟩
  show i ∈ ((View.whole main_v3_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [(idx3 t).1]; omega
  | ⟨1, _⟩ =>
    show win0_3.index t 1 * 1 ≤ (i 1).val ∧ (i 1).val < win0_3.index t 1 * 1 + 1
    rw [(idx3 t).2.1]; omega
  | ⟨2, _⟩ =>
    show win0_3.index t 2 * 16384 ≤ (i 2).val ∧ (i 2).val < win0_3.index t 2 * 16384 + 16384
    rw [(idx3 t).2.2]; omega

/-- Output 3 ends holding `rows3`. -/
theorem final3 (c : Dev nD) : (dats m 0 c).arrAt 3 cfg0.N = rows3 m c :=
  (dats m 0 c).arrAt_eq_of_cover 3 (rows3 m c) (flushed3_eq m c) (cover3 c)

/-! ## The lines after the region -/

/-- Row h of output 3, sliced out and flattened, reads the half's distances. -/
theorem half_apply (c : Dev nD) (hv : ℕ) (off : Fin 3 → ℕ) (hoff : off = ![hv, 0, 0]) (hs : S2x1x16384.Slices off S1x1x16384) (q : Fin 16384) :
    shapeCast S16384 (extractStridedSlice S1x1x16384 off (rows3 m c) hs) shapeCasts_S1x1x16384_S16384 (ix1 q)
      = Ideal.sqrt (colInf (X0 m c) (X1 m c) q (hv * 8192) 8192) := by
  subst hoff
  refine (shapeCast_apply _ shapeCasts_S1x1x16384_S16384 (ix1 q) (ix3 (0 : Fin 1) (0 : Fin 1) q)
    (by rw [Shape.rowMajor_val_three, Shape.rowMajor_val_one]; show (0 * 1 + 0) * 16384 + q.val = q.val; omega)).trans ?_
  unfold extractStridedSlice rows3
  have e2 : fin14 (q.val) = q := Fin.ext (Nat.mod_eq_of_lt q.isLt)
  show Ideal.sqrt (colInf _ _ (fin14 (0 + q.val)) ((hv + 0) * 8192) 8192) = _
  rw [Nat.zero_add, Nat.add_zero, e2]

/-- The two vectors the lines after the region average: the smaller of output 3's two rows, and output 2. -/
theorem dist1_eq (c : Dev nD) (hs0 : S2x1x16384.Slices ![0, 0, 0] S1x1x16384) (hs1 : S2x1x16384.Slices ![1, 0, 0] S1x1x16384) :
    (minimumf (F := Ideal) (φ := .f32)
        (shapeCast S16384 (extractStridedSlice S1x1x16384 ![0, 0, 0] (rows3 m c) hs0) shapeCasts_S1x1x16384_S16384)
        (shapeCast S16384 (extractStridedSlice S1x1x16384 ![1, 0, 0] (rows3 m c) hs1) shapeCasts_S1x1x16384_S16384)
      : FVec Ideal S16384 .f32)
      = fun j => nearest1 (X0 m c) (X1 m c) (j 0) := by
  funext j
  obtain ⟨q, rfl⟩ : ∃ q : Fin 16384, j = ix1 q := ⟨j 0, eq_ix1 j⟩
  show min _ _ = nearest1 (X0 m c) (X1 m c) q
  have a0 : shapeCast S16384 (extractStridedSlice S1x1x16384 ![0, 0, 0] (rows3 m c) hs0) shapeCasts_S1x1x16384_S16384 (ix1 q)
      = Ideal.sqrt (colInf (X0 m c) (X1 m c) q (0 * 8192) 8192) := half_apply m c 0 ![0, 0, 0] rfl hs0 q
  have a1 : shapeCast S16384 (extractStridedSlice S1x1x16384 ![1, 0, 0] (rows3 m c) hs1) shapeCasts_S1x1x16384_S16384 (ix1 q)
      = Ideal.sqrt (colInf (X0 m c) (X1 m c) q (1 * 8192) 8192) := half_apply m c 1 ![1, 0, 0] rfl hs1 q
  rw [a0, a1, nearest1_eq]

theorem dist2_eq (c : Dev nD) :
    (shapeCast S16384 (row2 m c) shapeCasts_S1x16384_S16384 : FVec Ideal S16384 .f32)
      = fun j => nearest2 (X0 m c) (X1 m c) (j 0) := by
  funext j
  obtain ⟨q, rfl⟩ : ∃ q : Fin 16384, j = ix1 q := ⟨j 0, eq_ix1 j⟩
  rw [shapeCast_1a_a_apply]
  unfold row2
  exact congrArg (nearest2 _ _) (Fin.ext (Nat.mod_eq_of_lt q.isLt))

/-- The result buffer after the lines that follow the region: the common value of the two programs. -/
theorem tail_eq (c : Dev nD) :
    Pipeline.afterTail₀ cfgs (dats m) 0 (V0 m) [hostOps1] c main_v14
      = chamfer reducesTo_S16384_S_d0 h_S_ (X0 m c) (X1 m c) := by
  unfold Pipeline.afterTail₀
  show StableHlo.after hostOps1 _ (Proc.devRef .tc main_v14) = _
  after_results_simp
  rw [show Pipeline.withArrays (cfgs 0).spec c (V0 m c) (fun w => (dats m 0 c).arrAt w (cfgs 0).N) (Proc.devRef .tc main_v3_0)
        = row2 m c from (Pipeline.withArrays_arr spec0 launch0.win.arr_inj c _ _ 2).trans (final2 m c),
      show Pipeline.withArrays (cfgs 0).spec c (V0 m c) (fun w => (dats m 0 c).arrAt w (cfgs 0).N) (Proc.devRef .tc main_v3_1)
        = rows3 m c from (Pipeline.withArrays_arr spec0 launch0.win.arr_inj c _ _ 3).trans (final3 m c)]
  unfold chamfer
  exact congrArg₂ (meanPlusMean reducesTo_S16384_S_d0 h_S_)
    (dist1_eq m c slices_S2x1x16384_S1x1x16384_0_0_0 slices_S2x1x16384_S1x1x16384_1_0_0) (dist2_eq m c)

/-- The kernel's run, read: the result at the common value, the two clouds unchanged. -/
theorem run : θ_run defs (onTc (τ := τ) (main (F := Ideal))) ⟨m, fun _ => 0, ρ⟩ fun r => ∀ c : Dev nD,
      r.2.mem ((c : Thread nD τ).loc main_v14) = chamfer reducesTo_S16384_S_d0 h_S_ (X0 m c) (X1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefTable.lean ====
/-
  The reference program's table of distances, one entry at a time.

  The reference lists each cloud as 16384 points (slab by slab, so that point n sits in slab n / 2048 at position
  n % 2048), forms for every pair (n, m) the number  ‖p‖² + ‖q‖² − 2⟨p, q⟩  clamped below at zero, p the n-th point of
  the first cloud and q the m-th of the second, and takes its square root.  When every coordinate is a real number the
  expansion of the square turns that number into the sum of the three squared coordinate differences, so the entry
  (n, m) of the table is √sqd n m.
-/
import proofs.«137904_j8701603742377_2_alg».proof.Proof.Gen.ReferenceIdeal.Read
import proofs.«137904_j8701603742377_2_alg».proof.Proof.Nearest

noncomputable section

namespace Cert.Chamfer.Ref

open Cert.ReferenceIdeal Cert.ReferenceIdeal.Gen Cert.ReferenceIdeal.Read
open Idealize.ShloMosaic Idealize.ShloMosaic.ValueIdx

/-- The word 0x40000000 denotes the real number two. -/
theorem ofBits_two_f32 : Ideal.ofBits .f32 0x40000000#32 = ((2 : ℝ) : EReal) := by
  simp [Ideal.ofBits, Ideal.ieee]
  rw [← EReal.coe_mul, EReal.coe_eq_coe_iff]
  norm_num

/-- Row n, column k of the first cloud's list of points is coordinate k of point n. -/
theorem list0_at (x0 : Cloud) (n : Fin 16384) (k : Fin 3) :
    val_main_v0 (F := Ideal) x0 (ix2 n k) = pt x0 n k := by
  rw [val_main_v0_apply]
  unfold pt
  refine congrArg x0 (funext fun a => Fin.ext ?_)
  have hn := n.isLt
  have hk := k.isLt
  match a with
  | ⟨0, _⟩ => show (n.val * 3 + k.val) / 6144 = n.val / 2048; omega
  | ⟨1, _⟩ => show (n.val * 3 + k.val) / 3 % 2048 = n.val % 2048; omega
  | ⟨2, _⟩ => show (n.val * 3 + k.val) % 3 = k.val; omega

/-- The same for the second cloud. -/
theorem list1_at (x1 : Cloud) (m : Fin 16384) (k : Fin 3) :
    val_main_v1 (F := Ideal) x1 (ix2 m k) = pt x1 m k := by
  rw [val_main_v1_apply]
  unfold pt
  refine congrArg x1 (funext fun a => Fin.ext ?_)
  have hm := m.isLt
  have hk := k.isLt
  match a with
  | ⟨0, _⟩ => show (m.val * 3 + k.val) / 6144 = m.val / 2048; omega
  | ⟨1, _⟩ => show (m.val * 3 + k.val) / 3 % 2048 = m.val % 2048; omega
  | ⟨2, _⟩ => show (m.val * 3 + k.val) % 3 = k.val; omega

/-- The squared norm of point n of the first cloud, accumulated from zero. -/
theorem norm0_at (x0 : Cloud) (n : Fin 16384) :
    val_main_v3 (F := Ideal) x0 (ix1 n) = (0 : EReal) + ∑ k : Fin 3, pt x0 n k * pt x0 n k := by
  rw [val_main_v3_apply, val_main_cst_apply]
  refine congrArg₂ (· + ·) Ideal.ofBits_zero_f32 (Finset.sum_congr rfl fun k _ => ?_)
  have e : idx_main_v3 (ix1 n) k = ix2 n k :=
    funext fun a => Fin.ext (by match a with | ⟨0, _⟩ => rfl | ⟨1, _⟩ => rfl)
  rw [val_main_v2_apply, e, list0_at]
  rfl

/-- The squared norm of point m of the second cloud, accumulated from zero. -/
theorem norm1_at (x1 : Cloud) (m : Fin 16384) :
    val_main_v5 (F := Ideal) x1 (ix1 m) = (0 : EReal) + ∑ k : Fin 3, pt x1 m k * pt x1 m k := by
  rw [val_main_v5_apply, val_main_cst_0_apply]
  refine congrArg₂ (· + ·) Ideal.ofBits_zero_f32 (Finset.sum_congr rfl fun k _ => ?_)
  have e : idx_main_v5 (ix1 m) k = ix2 m k :=
    funext fun a => Fin.ext (by match a with | ⟨0, _⟩ => rfl | ⟨1, _⟩ => rfl)
  rw [val_main_v4_apply, e, list1_at]
  rfl

/-- The first cloud's squared norms spread along the rows of the table. -/
theorem rows_at (x0 : Cloud) (n m : Fin 16384) :
    val_main_v8 (F := Ideal) x0 (ix2 n m) = (0 : EReal) + ∑ k : Fin 3, pt x0 n k * pt x0 n k := by
  rw [val_main_v8_apply, val_main_v6_apply]
  have e : idx_main_v6 (idx_main_v8 (ix2 n m)) = ix1 n :=
    funext fun a => Fin.ext (by match a with | ⟨0, _⟩ => rfl)
  rw [e, norm0_at]

/-- The second cloud's squared norms spread along the columns of the table. -/
theorem cols_at (x1 : Cloud) (n m : Fin 16384) :
    val_main_v9 (F := Ideal) x1 (ix2 n m) = (0 : EReal) + ∑ k : Fin 3, pt x1 m k * pt x1 m k := by
  rw [val_main_v9_apply, val_main_v7_apply]
  have e : idx_main_v7 (idx_main_v9 (ix2 n m)) = ix1 m :=
    funext fun a => Fin.ext (by match a with | ⟨0, _⟩ => rfl)
  rw [e, norm1_at]

/-- The inner product of point n of the first cloud with point m of the second. -/
theorem inner_at (x0 x1 : Cloud) (n m : Fin 16384) :
    val_main_v11 (F := Ideal) x0 x1 (ix2 n m) = ∑ k : Fin 3, pt x0 n k * pt x1 m k := by
  rw [val_main_v11_apply]
  refine Finset.sum_congr rfl fun k _ => ?_
  have el : lidx_main_v11 (ix2 n m) k = ix2 n k :=
    funext fun a => Fin.ext (by match a with | ⟨0, _⟩ => rfl | ⟨1, _⟩ => rfl)
  have er : ridx_main_v11 (ix2 n m) k = ix2 m k :=
    funext fun a => Fin.ext (by match a with | ⟨0, _⟩ => rfl | ⟨1, _⟩ => rfl)
  rw [el, er, list0_at, list1_at]

/-- The clamped number whose square root the table holds at (n, m). -/
theorem clamped_at (x0 x1 : Cloud) (n m : Fin 16384) :
    val_main_v16 (F := Ideal) x0 x1 (ix2 n m)
      = max ((((0 : EReal) + ∑ k : Fin 3, pt x0 n k * pt x0 n k) + ((0 : EReal) + ∑ k : Fin 3, pt x1 m k * pt x1 m k))
          - ((2 : ℝ) : EReal) * ∑ k : Fin 3, pt x0 n k * pt x1 m k) (0 : EReal) := by
  rw [val_main_v16_apply, val_main_v14_apply, val_main_v10_apply, val_main_v13_apply, val_main_v12_apply,
    val_main_cst_1_apply, val_main_v15_apply, val_main_cst_2_apply, rows_at, cols_at, inner_at]
  simp only [Ideal.ofBits_def, Ideal.addf_def, Ideal.subf_def, Ideal.mulf_def, Ideal.maximumf_def,
    Ideal.ofBits_zero_f32, ofBits_two_f32]

/-- With real coordinates the table's entry (n, m) is the distance between point n of the first cloud and point m of
    the second. -/
theorem table_at (x0 x1 : Cloud) (h0 : ∀ i, ∃ r : ℝ, x0 i = (r : EReal)) (h1 : ∀ i, ∃ r : ℝ, x1 i = (r : EReal))
    (n m : Fin 16384) :
    val_main_v17 (F := Ideal) x0 x1 (ix2 n m) = Ideal.sqrt (sqd x0 x1 n m) := by
  rw [val_main_v17_apply, clamped_at, Ideal.hostUnary_sqrt_def]
  refine congrArg Ideal.sqrt ?_
  choose a ha using h0
  choose b hb using h1
  have ea : ∀ k : Fin 3, pt x0 n k
      = ((a (ix3 (⟨n.val / 2048, by omega⟩ : Fin 8) (⟨n.val % 2048, Nat.mod_lt _ (by decide)⟩ : Fin 2048) k) : ℝ) : EReal) :=
    fun k => ha _
  have eb : ∀ k : Fin 3, pt x1 m k
      = ((b (ix3 (⟨m.val / 2048, by omega⟩ : Fin 8) (⟨m.val % 2048, Nat.mod_lt _ (by decide)⟩ : Fin 2048) k) : ℝ) : EReal) :=
    fun k => hb _
  unfold sqd
  simp only [ea, eb]
  exact sqdist_expand
    (fun k => a (ix3 (⟨n.val / 2048, by omega⟩ : Fin 8) (⟨n.val % 2048, Nat.mod_lt _ (by decide)⟩ : Fin 2048) k))
    (fun k => b (ix3 (⟨m.val / 2048, by omega⟩ : Fin 8) (⟨m.val % 2048, Nat.mod_lt _ (by decide)⟩ : Fin 2048) k))

end Cert.Chamfer.Ref

end
-- ==== Proof.RefNearest.lean ====
/-
  The reference program's two vectors of nearest-neighbour distances, and its result.

  The reference takes, down each column m of its table of distances, the minimum over the rows starting from +∞ — the
  distance from point m of the second cloud to the nearest point of the first — and along each row n the minimum over
  the columns.  A minimum folded from the top element of the extended reals over all of a finite index set is the
  infimum over that set, and the table's entries are the distances √sqd n m, so the two vectors are nearest1 and
  nearest2.  The result is then the mean of the one plus the mean of the other.
-/
import proofs.«137904_j8701603742377_2_alg».proof.Proof.RefTable
import proofs.«137904_j8701603742377_2_alg».proof.Proof.LibMinReduce

noncomputable section

namespace Cert.Chamfer.Ref

open Cert.ReferenceIdeal Cert.ReferenceIdeal.Gen Cert.ReferenceIdeal.Read
open Idealize.ShloMosaic Idealize.ShloMosaic.ValueIdx

/-- The word 0x7F800000 denotes +∞, the top element of the extended reals. -/
theorem ofBits_inf_f32 : Ideal.ofBits .f32 0x7F800000#32 = (⊤ : EReal) := by
  simp [Ideal.ofBits, Ideal.ieee]

/-- The table loses its row axis when reduced down the columns … -/
theorem dropRows : S16384x16384.Reduces [0] S16384 := by decide
/-- … and its column axis when reduced along the rows. -/
theorem dropCols : S16384x16384.Reduces [1] S16384 := by decide

/-- Entry m of the first reduced vector: the least distance from point m of the second cloud to a point of the first. -/
theorem dist1_eq (x0 x1 : Cloud) (h0 : ∀ i, ∃ r : ℝ, x0 i = (r : EReal)) (h1 : ∀ i, ∃ r : ℝ, x1 i = (r : EReal)) :
    val_main_v18 (F := Ideal) x0 x1 = fun j => nearest1 x0 x1 (j 0) := by
  funext j
  obtain ⟨c, rfl⟩ : ∃ c : Fin 16384, j = ix1 c := ⟨j 0, eq_ix1 j⟩
  show Host.reduce (FloatOps.minimumf (F := Ideal) (φ := .f32)) (val_main_v17 (F := Ideal) x0 x1)
      (val_main_cst_3 (F := Ideal)) reducesTo_S16384x16384_S16384_d0 h_S_ (ix1 c) = nearest1 x0 x1 c
  refine (Host.reduce_eq_fold_single (FloatOps.minimumf (F := Ideal) (φ := .f32)) (val_main_v17 (F := Ideal) x0 x1)
    (val_main_cst_3 (F := Ideal)) reducesTo_S16384x16384_S16384_d0 dropRows h_S_ (ix1 c)).trans ?_
  have hf : (val_main_v17 (F := Ideal) x0 x1 ∘ dropRows.lift (ix1 c))
      = fun n : Fin 16384 => Ideal.sqrt (sqd x0 x1 n c) :=
    funext fun n => (congrArg (val_main_v17 (F := Ideal) x0 x1) (Cert.LibMinReduce.lift_col dropRows c n)).trans
      (table_at x0 x1 h0 h1 n c)
  rw [hf, val_main_cst_3_apply, Ideal.ofBits_def, ofBits_inf_f32]
  rfl

/-- Entry n of the second reduced vector: the least distance from point n of the first cloud to a point of the second. -/
theorem dist2_eq (x0 x1 : Cloud) (h0 : ∀ i, ∃ r : ℝ, x0 i = (r : EReal)) (h1 : ∀ i, ∃ r : ℝ, x1 i = (r : EReal)) :
    val_main_v19 (F := Ideal) x0 x1 = fun j => nearest2 x0 x1 (j 0) := by
  funext j
  obtain ⟨r, rfl⟩ : ∃ r : Fin 16384, j = ix1 r := ⟨j 0, eq_ix1 j⟩
  show Host.reduce (FloatOps.minimumf (F := Ideal) (φ := .f32)) (val_main_v17 (F := Ideal) x0 x1)
      (val_main_cst_4 (F := Ideal)) reducesTo_S16384x16384_S16384_d1 h_S_ (ix1 r) = nearest2 x0 x1 r
  refine (Host.reduce_eq_fold_single (FloatOps.minimumf (F := Ideal) (φ := .f32)) (val_main_v17 (F := Ideal) x0 x1)
    (val_main_cst_4 (F := Ideal)) reducesTo_S16384x16384_S16384_d1 dropCols h_S_ (ix1 r)).trans ?_
  have hf : (val_main_v17 (F := Ideal) x0 x1 ∘ dropCols.lift (ix1 r))
      = fun m : Fin 16384 => Ideal.sqrt (sqd x0 x1 r m) :=
    funext fun m => (congrArg (val_main_v17 (F := Ideal) x0 x1) (Cert.LibRowReduce.lift_row dropCols r m)).trans
      (table_at x0 x1 h0 h1 r m)
  rw [hf, val_main_cst_4_apply, Ideal.ofBits_def, ofBits_inf_f32]
  rfl

/-- The reference's result: the mean of the first vector plus the mean of the second. -/
theorem result_eq (x0 x1 : Cloud) (h0 : ∀ i, ∃ r : ℝ, x0 i = (r : EReal)) (h1 : ∀ i, ∃ r : ℝ, x1 i = (r : EReal)) :
    val_main_v24 (F := Ideal) x0 x1 = chamfer reducesTo_S16384_S_d0 h_S_ x0 x1 := by
  show meanPlusMean reducesTo_S16384_S_d0 h_S_ (val_main_v18 (F := Ideal) x0 x1) (val_main_v19 (F := Ideal) x0 x1) = _
  rw [dist1_eq x0 x1 h0 h1, dist2_eq x0 x1 h0 h1]
  rfl

end Cert.Chamfer.Ref

end
-- ==== Proof.FiniteInputs.lean ====
/-
  The precondition read back: both clouds hold real numbers.

  The precondition tests, for each cloud, that every entry's absolute value is below +∞, combines each cloud's tests
  by "and" over all entries starting from true, and combines the two results by "and".  If the outcome is true then
  both combined results are true, so every single test is true, and an extended real whose absolute value is below
  +∞ is a real number.
-/
import proofs.«137904_j8701603742377_2_alg».proof.Pre_finite_inputs
import proofs.«137904_j8701603742377_2_alg».proof.Proof.Gen.Pre_finite_inputs
import proofs.«137904_j8701603742377_2_alg».proof.Proof.LibFiniteEntry
import proofs.«137904_j8701603742377_2_alg».proof.Proof.Nearest
import Idealize.ShloMosaic.Lib.ReduceAll

noncomputable section

namespace Cert.Chamfer.Finite

open Idealize.ShloMosaic

/-- The shape with no axes has exactly one index. -/
instance : Subsingleton (⟨0, ![]⟩ : Shape).Idx := ⟨fun _ _ => funext fun d => d.elim0⟩

/-- If the precondition holds of two clouds then every entry of each is a real number. -/
theorem real_of_pre [hPre_finite_inputs : Cert.Pre_finite_inputs.Facts] (x0 x1 : Cert.Chamfer.Cloud)
    (h : Cert.Pre_finite_inputs.fn (F := Ideal) x0 x1 = fun _ => 1#1) :
    (∀ i, ∃ r : ℝ, x0 i = (r : EReal)) ∧ (∀ i, ∃ r : ℝ, x1 i = (r : EReal)) := by
  have e := congrFun h ValueIdx.ix0
  dsimp only [Cert.Pre_finite_inputs.fn] at e
  obtain ⟨e0, e1⟩ := IntOp.andi_eq_one.1 e
  exact ⟨fun i => Cert.FiniteEntry.real_of_test (x0 i) (Host.reduce_andi_all _ _ _ _ _ e0 i),
    fun i => Cert.FiniteEntry.real_of_test (x1 i) (Host.reduce_andi_all _ _ _ _ _ e1 i)⟩

end Cert.Chamfer.Finite

end
-- ==== Proof.lean ====
/-
  The two programs compute the same number: the mean distance from each point of the second cloud to its nearest point
  of the first, plus the mean distance from each point of the first cloud to its nearest point of the second.

  The kernel forms each squared distance as a sum of three squared coordinate differences, keeps running minima of the
  squared distances in both directions across a grid of tiles (one direction split over the two halves of the first
  cloud), and takes square roots at the end; the reference expands ‖a − b‖² as ‖a‖² + ‖b‖² − 2⟨a, b⟩, clamps at zero,
  takes square roots of all pairs and then the minima.  For real entries the expansion is exact and nonnegative, so
  the clamp does nothing, and the square root, being monotone, commutes with the minima.  The entries are real because
  the precondition says every input is finite.  The idealization rewrote nothing, so that conjunct holds trivially; the
  three frames are the generated ones, the reference's being its generated run with the result dropped.
-/
import proofs.«137904_j8701603742377_2_alg».proof.Defs
import proofs.«137904_j8701603742377_2_alg».proof.Proof.Gen.Kernel
import proofs.«137904_j8701603742377_2_alg».proof.Proof.Gen.Kernel.Skeleton
import proofs.«137904_j8701603742377_2_alg».proof.Proof.Gen.Kernel.Launch
import proofs.«137904_j8701603742377_2_alg».proof.Proof.Gen.Kernel.Points
import proofs.«137904_j8701603742377_2_alg».proof.Proof.Gen.Kernel.Frame
import proofs.«137904_j8701603742377_2_alg».proof.Proof.Gen.KernelIdeal
import proofs.«137904_j8701603742377_2_alg».proof.Proof.Gen.KernelIdeal.Skeleton
import proofs.«137904_j8701603742377_2_alg».proof.Proof.Gen.KernelIdeal.Launch
import proofs.«137904_j8701603742377_2_alg».proof.Proof.Gen.KernelIdeal.Points
import proofs.«137904_j8701603742377_2_alg».proof.Proof.Gen.KernelIdeal.Frame
import proofs.«137904_j8701603742377_2_alg».proof.Proof.Gen.ReferenceIdeal
import proofs.«137904_j8701603742377_2_alg».proof.Proof.Gen.Pre_finite_inputs
import proofs.«137904_j8701603742377_2_alg».proof.Proof.Gen.ReferenceIdeal.Run
import proofs.«137904_j8701603742377_2_alg».proof.Proof.Gen.ReferenceIdeal.Read
import proofs.«137904_j8701603742377_2_alg».proof.Proof.Distance
import proofs.«137904_j8701603742377_2_alg».proof.Proof.Final
import proofs.«137904_j8701603742377_2_alg».proof.Proof.RefNearest
import proofs.«137904_j8701603742377_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From clouds that agree and are finite, the kernel's result (read off its run) and the reference's (its generated
    run, read one operation at a time) are the same mean nearest-neighbour distance. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  obtain ⟨h0, h1⟩ := Cert.Chamfer.Finite.real_of_pre _ _ (hpre c)
  exact Cert.Chamfer.Ref.result_eq _ _ h0 h1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
